-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x97x97 : Shape := ⟨4, ![32, 512, 97, 97]⟩
abbrev S8x9409 : Shape := ⟨2, ![8, 9409]⟩
abbrev S8 : Shape := ⟨1, ![8]⟩
abbrev S32x4096 : Shape := ⟨2, ![32, 4096]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S32x512x97x97 : S_.BroadcastsInDim S32x512x97x97 (![] : Fin 0 → Fin S32x512x97x97.rank)
  reducesTo_S32x512x97x97_S_d0_1_2_3 : S32x512x97x97.ReducesTo [0, 1, 2, 3] S_
  h_S_ : 0 < S_.numel
  bcast_S_S8x9409 : S_.BroadcastsInDim S8x9409 (![] : Fin 0 → Fin S8x9409.rank)
  reducesTo_S8x9409_S_d0_1 : S8x9409.ReducesTo [0, 1] S_
  bcast_S_S8 : S_.BroadcastsInDim S8 (![] : Fin 0 → Fin S8.rank)
  reducesTo_S8_S_d0 : S8.ReducesTo [0] S_
  bcast_S_S32x4096 : S_.BroadcastsInDim S32x4096 (![] : Fin 0 → Fin S32x4096.rank)
  reducesTo_S32x4096_S_d0_1 : S32x4096.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x32 .f32) (main_arg8 : FVec F S512 .f32) (main_v33 : IVec S_ 1) : IVec S_ 1 :=
  let main_v34 : FVec F S512x32 .f32 := Host.absf main_arg7
  let main_cst_12 : FVec F S_ .f32 := constant S_ .f32 0x7F800000#32
  let main_v35 : FVec F S512x32 .f32 := broadcastInDim S512x32 ![] bcast_S_S512x32 main_cst_12
  let main_v36 : IVec S512x32 1 := cmpf .olt main_v34 main_v35
  let main_c_13 : IVec S_ 1 := constantI S_ 1 1#1
  let main_v37 : IVec S_ 1 := (fun x v => Host.reduce IntOp.andi x v reducesTo_S512x32_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S32 .f32) (main_arg5 : FVec F S32 .f32) (main_arg6 : FVec F S32 .f32) (main_arg7 : FVec F S512x32 .f32) (main_arg8 : FVec F S512 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S32x512x97x97 .f32) (main_arg1 : FVec F S8x9409 .f32) (main_arg2 : FVec F S8 .f32) (main_arg3 : FVec F S32x4096 .f32) (main_arg4 : FVec F S32 .f32) (main_arg5 : FVec F S32 .f32) (main_arg6 : FVec F S32 .f32) (main_arg7 : FVec F S512x32 .f32) (main_arg8 : FVec F S512 .f32) : IVec S_ 1 :=
  let main_v0 : FVec F S32x512x97x97 .f32 := Host.absf main_arg0
  let main_cst : FVec F S_ .f32 := constant S_ .f32 0x7F800000#32
  let main_v1 : FVec F S32x512x97x97 .f32 := broadcastInDim S32x512x97x97 ![] bcast_S_S32x512x97x97 main_cst
  let main_v2 : IVec S32x512x97x97 1 := cmpf .olt main_v0 main_v1
  let main_c : IVec S_ 1 := constantI S_ 1 1#1
  let main_v3 : IVec S_ 1 := (fun x v => Host.reduce IntOp.andi x v reducesTo_S32x512x97x97_S_d0_1_2_3 h_S_) main_v2 main_c
  let main_v4 : FVec F S8x9409 .f32 := Host.absf main_arg1
  let main_cst_0 : FVec F S_ .f32 := constant S_ .f32 0x7F800000#32
  let main_v5 : FVec F S8x9409 .f32 := broadcastInDim S8x9409 ![] bcast_S_S8x9409 main_cst_0
  let main_v6 : IVec S8x9409 1 := cmpf .olt main_v4 main_v5
  let main_c_1 : IVec S_ 1 := constantI S_ 1 1#1
  let main_v7 : IVec S_ 1 := (fun x v => Host.reduce IntOp.andi x v reducesTo_S8x9409_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S32x4096 .f32 := Host.absf main_arg3
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg4 main_arg5 main_arg6 main_arg7 main_arg8 main_v13 main_v16
-- ==== Kernel.lean ====
abbrev S32x512x97x97 : Shape := ⟨4, ![32, 512, 97, 97]⟩
abbrev S8x9409 : Shape := ⟨2, ![8, 9409]⟩
abbrev S8 : Shape := ⟨1, ![8]⟩
abbrev S32x4096 : Shape := ⟨2, ![32, 4096]⟩
abbrev S32 : Shape := ⟨1, ![32]⟩
abbrev S512x32 : Shape := ⟨2, ![512, 32]⟩
abbrev S512 : Shape := ⟨1, ![512]⟩
abbrev S32x512x9409 : Shape := ⟨3, ![32, 512, 9409]⟩
abbrev S1x512x9409 : Shape := ⟨3, ![1, 512, 9409]⟩
abbrev S512x9409 : Shape := ⟨2, ![512, 9409]⟩
abbrev S512x8 : Shape := ⟨2, ![512, 8]⟩
abbrev S1x8 : Shape := ⟨2, ![1, 8]⟩
abbrev S8x1 : Shape := ⟨2, ![8, 1]⟩
abbrev S8x512 : Shape := ⟨2, ![8, 512]⟩
abbrev S1x4096 : Shape := ⟨2, ![1, 4096]⟩
abbrev S1x32 : Shape := ⟨2, ![1, 32]⟩
abbrev S1 : Shape := ⟨1, ![1]⟩
abbrev S1x1 : Shape := ⟨2, ![1, 1]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32x512x97x97, .f32⟩
  | .hbm, ⟨1, _⟩ => ⟨S8x9409, .f32⟩
  | .hbm, ⟨2, _⟩ => ⟨S8, .f32⟩
  | .hbm, ⟨3, _⟩ => ⟨S32x4096, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S512x32, .f32⟩
  | .hbm, ⟨8, _⟩ => ⟨S512, .f32⟩
  | .hbm, ⟨9, _⟩ => ⟨S32x512x9409, .f32⟩
  | .hbm, ⟨10, _⟩ => ⟨S32x512x9409, .f32⟩
  | .hbm, ⟨11, _⟩ => ⟨S32x512x97x97, .f32⟩
  | .local _ .vmem, ⟨0, _⟩ => ⟨S1x512x9409, .f32⟩
  | .local _ .vmem, ⟨1, _⟩ => ⟨S1x512x9409, .f32⟩
  | .local _ .vmem, ⟨2, _⟩ => ⟨S8x9409, .f32⟩
  | .local _ .vmem, ⟨3, _⟩ => ⟨S8, .f32⟩
  | .local _ .vmem, ⟨4, _⟩ => ⟨S32x4096, .f32⟩
  | .local _ .vmem, ⟨5, _⟩ => ⟨S32, .f32⟩
  | .local _ .vmem, ⟨6, _⟩ => ⟨S32, .f32⟩
  | .local _ .vmem, ⟨7, _⟩ => ⟨S32, .f32⟩
  | .local _ .vmem, ⟨8, _⟩ => ⟨S512x32, .f32⟩
  | .local _ .vmem, ⟨9, _⟩ => ⟨S512, .f32⟩
  | .local _ .vmem, ⟨10, _⟩ => ⟨S1x512x9409, .f32⟩
  | .local _ .vmem, ⟨11, _⟩ => ⟨S1x512x9409, .f32⟩
  | _, _ => ⟨S32x512x97x97, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x9409 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x9409 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x9409 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32x512x97x97_S32x512x9409 : S32x512x97x97.ShapeCasts S32x512x9409
  inb_S8x9409_S8x9409_0_0 : ∀ a, (![0, 0] : Fin 2 → Nat) a + S8x9409.size a ≤ S8x9409.size a
  h_S8x9409 : 0 < S8x9409.numel
  inb_S8_S8_0 : ∀ a, (![0] : Fin 1 → Nat) a + S8.size a ≤ S8.size a
  h_S8 : 0 < S8.numel
  inb_S1x512x9409_S1x512x9409_0_0_0 : ∀ a, (![0, 0, 0] : Fin 3 → Nat) a + S1x512x9409.size a ≤ S1x512x9409.size a
  h_S1x512x9409 : 0 < S1x512x9409.numel
  shapeCasts_S1x512x9409_S512x9409 : S1x512x9409.ShapeCasts S512x9409
  shapeCasts_S8_S1x8 : S8.ShapeCasts S1x8
  broadcasts_S1x8_S512x8 : S1x8.Broadcasts S512x8
  reduces_S8x9409_S8 : S8x9409.Reduces [1] S8
  shapeCasts_S8_S8x1 : S8.ShapeCasts S8x1
  broadcasts_S8x1_S8x9409 : S8x1.Broadcasts S8x9409
  shapeCasts_S8x512_S1x4096 : S8x512.ShapeCasts S1x4096
  inb_S32x4096_S32x4096_0_0 : ∀ a, (![0, 0] : Fin 2 → Nat) a + S32x4096.size a ≤ S32x4096.size a
  h_S32x4096 : 0 < S32x4096.numel
  inb_S32_S32_0 : ∀ a, (![0] : Fin 1 → Nat) a + S32.size a ≤ S32.size a
  h_S32 : 0 < S32.numel
  shapeCasts_S32_S1x32 : S32.ShapeCasts S1x32
  reduces_S1x32_S1 : S1x32.Reduces [1] S1
  shapeCasts_S1_S1x1 : S1.ShapeCasts S1x1
  broadcasts_S1x1_S1x32 : S1x1.Broadcasts S1x32
  inb_S512x32_S512x32_0_0 : ∀ a, (![0, 0] : Fin 2 → Nat) a + S512x32.size a ≤ S512x32.size a
  h_S512x32 : 0 < S512x32.numel
  inb_S512_S512_0 : ∀ a, (![0] : Fin 1 → Nat) a + S512.size a ≤ S512.size a
  h_S512 : 0 < S512.numel
  shapeCasts_S512_S512x1 : S512.ShapeCasts S512x1
  broadcasts_S512x1_S512x9409 : S512x1.Broadcasts S512x9409
  shapeCasts_S512x9409_S1x512x9409 : S512x9409.ShapeCasts S1x512x9409
  shapeCasts_S32x512x9409_S32x512x97x97 : S32x512x9409.ShapeCasts S32x512x97x97
  dot_S512x9409_S8x9409_S512x8_1_1_0_0_n_n_wf : DotDims.WF S512x9409 S8x9409 S512x8 [1] [1] [0] [0] [] []
  dot_S512x8_S512x9409_S8x9409_0_0_1_1_n_n_wf : DotDims.WF S512x8 S512x9409 S8x9409 [0] [0] [1] [1] [] []
  dot_S8x9409_S512x9409_S8x512_1_1_0_0_n_n_wf : DotDims.WF S8x9409 S512x9409 S8x512 [1] [1] [0] [0] [] []
  dot_S1x4096_S32x4096_S1x32_1_1_0_0_n_n_wf : DotDims.WF S1x4096 S32x4096 S1x32 [1] [1] [0] [0] [] []
  dot_S512x32_S1x32_S512x1_1_1_0_0_n_n_wf : DotDims.WF S512x32 S1x32 S512x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x9409.size a ≤ S32x512x9409.size a
  hwx0_0 : ∀ i : grid0.Coords, EltTy.bits .f32 = 32 ∨ (Rect.block (s := S32x512x9409) S1x512x9409.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x9409.size a ≤ S8x9409.size a
  hwx0_1 : ∀ i : grid0.Coords, EltTy.bits .f32 = 32 ∨ (Rect.block (s := S8x9409) S8x9409.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S32x4096.size a
  hwx0_3 : ∀ i : grid0.Coords, EltTy.bits .f32 = 32 ∨ (Rect.block (s := S32x4096) S32x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x32.size a ≤ S512x32.size a
  hwx0_7 : ∀ i : grid0.Coords, EltTy.bits .f32 = 32 ∨ (Rect.block (s := S512x32) S512x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x9409.size a ≤ S32x512x9409.size a
  hwx0_9 : ∀ i : grid0.Coords, EltTy.bits .f32 = 32 ∨ (Rect.block (s := S32x512x9409) S1x512x9409.size (cc0_transform_9 i) (hinb0_9 i)).WholeWords (EltTy.packing .f32)

variable [Facts₀]

def dot_S512x9409_S8x9409_S512x8_1_1_0_0_n_n : DotDims S512x9409 S8x9409 S512x8 where
  lhsContracting := [1]
  rhsContracting := [1]
  lhsNonContracting := [0]
  rhsNonContracting := [0]
  lhsBatch := []
  rhsBatch := []
  wf := dot_S512x9409_S8x9409_S512x8_1_1_0_0_n_n_wf
def dot_S512x8_S512x9409_S8x9409_0_0_1_1_n_n : DotDims S512x8 S512x9409 S8x9409 where
  lhsContracting := [0]
  rhsContracting := [0]
  lhsNonContracting := [1]
  rhsNonContracting := [1]
  lhsBatch := []
  rhsBatch := []
  wf := dot_S512x8_S512x9409_S8x9409_0_0_1_1_n_n_wf
def dot_S8x9409_S512x9409_S8x512_1_1_0_0_n_n : DotDims S8x9409 S512x9409 S8x512 where
  lhsContracting := [1]
  rhsContracting := [1]
  lhsNonContracting := [0]
  rhsNonContracting := [0]
  lhsBatch := []
  rhsBatch := []
  wf := dot_S8x9409_S512x9409_S8x512_1_1_0_0_n_n_wf
def dot_S1x4096_S32x4096_S1x32_1_1_0_0_n_n : DotDims S1x4096 S32x4096 S1x32 where
  lhsContracting := [1]
  rhsContracting := [1]
  lhsNonContracting := [0]
  rhsNonContracting := [0]
  lhsBatch := []
  rhsBatch := []
  wf := dot_S1x4096_S32x4096_S1x32_1_1_0_0_n_n_wf
def dot_S512x32_S1x32_S512x1_1_1_0_0_n_n : DotDims S512x32 S1x32 S512x1 where
  lhsContracting := [1]
  rhsContracting := [1]
  lhsNonContracting := [0]
  rhsNonContracting := [0]
  lhsBatch := []
  rhsBatch := []
  wf := dot_S512x32_S1x32_S512x1_1_1_0_0_n_n_wf

abbrev win0_0 : Pipeline.Window sig grid0 :=
  Pipeline.Window.ofSpec (Memref.whole main_v0) S1x512x9409.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x9409.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x512x9409.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where
  halias0_9 : Pipeline.Aliased win0 0 9

variable [Facts]
-- ==== ReferenceIdeal.lean ====
abbrev S32x512x97x97 : Shape := ⟨4, ![32, 512, 97, 97]⟩
abbrev S8x9409 : Shape := ⟨2, ![8, 9409]⟩
abbrev S8 : Shape := ⟨1, ![8]⟩
abbrev S32x4096 : Shape := ⟨2, ![32, 4096]⟩
abbrev S32 : Shape := ⟨1, ![32]⟩
abbrev S512x32 : Shape := ⟨2, ![512, 32]⟩
abbrev S512 : Shape := ⟨1, ![512]⟩
abbrev S32x512x9409 : Shape := ⟨3, ![32, 512, 9409]⟩
abbrev S8x32x512 : Shape := ⟨3, ![8, 32, 512]⟩
abbrev S32x8x512 : Shape := ⟨3, ![32, 8, 512]⟩
abbrev S1x8x1 : Shape := ⟨3, ![1, 8, 1]⟩
abbrev S32x8x9409 : Shape := ⟨3, ![32, 8, 9409]⟩
abbrev S_ : Shape := ⟨0, ![]⟩
abbrev S32x8 : Shape := ⟨2, ![32, 8]⟩
abbrev S32x8x1 : Shape := ⟨3, ![32, 8, 1]⟩
abbrev S32x32 : Shape := ⟨2, ![32, 32]⟩
abbrev S1x32 : Shape := ⟨2, ![1, 32]⟩
abbrev S32x1 : Shape := ⟨2, ![32, 1]⟩
abbrev S32x512 : Shape := ⟨2, ![32, 512]⟩
abbrev S1x512 : Shape := ⟨2, ![1, 512]⟩
abbrev S32x512x1x1 : Shape := ⟨4, ![32, 512, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S32x512x97x97, .f32⟩
  | .hbm, ⟨1, _⟩ => ⟨S8x9409, .f32⟩
  | .hbm, ⟨2, _⟩ => ⟨S8, .f32⟩
  | .hbm, ⟨3, _⟩ => ⟨S32x4096, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S512x32, .f32⟩
  | .hbm, ⟨8, _⟩ => ⟨S512, .f32⟩
  | .hbm, ⟨9, _⟩ => ⟨S32x512x9409, .f32⟩
  | .hbm, ⟨10, _⟩ => ⟨S8x32x512, .f32⟩
  | .hbm, ⟨11, _⟩ => ⟨S32x8x512, .f32⟩
  | .hbm, ⟨12, _⟩ => ⟨S1x8x1, .f32⟩
  | .hbm, ⟨13, _⟩ => ⟨S32x8x512, .f32⟩
  | .hbm, ⟨14, _⟩ => ⟨S32x8x512, .f32⟩
  | .hbm, ⟨15, _⟩ => ⟨S32x8x9409, .f32⟩
  | .hbm, ⟨16, _⟩ => ⟨S_, .f32⟩
  | .hbm, ⟨17, _⟩ => ⟨S32x8, .f32⟩
  | .hbm, ⟨18, _⟩ => ⟨S_, .f32⟩
  | .hbm, ⟨19, _⟩ => ⟨S32x8, .f32⟩
  | .hbm, ⟨20, _⟩ => ⟨S32x8, .f32⟩
  | .hbm, ⟨21, _⟩ => ⟨S32x8x1, .f32⟩
  | .hbm, ⟨22, _⟩ => ⟨S32x8x9409, .f32⟩
  | .hbm, ⟨23, _⟩ => ⟨S32x8x9409, .f32⟩
  | .hbm, ⟨24, _⟩ => ⟨S32x8x9409, .f32⟩
  | .hbm, ⟨25, _⟩ => ⟨S_, .f32⟩
  | .hbm, ⟨26, _⟩ => ⟨S32x8, .f32⟩
  | .hbm, ⟨27, _⟩ => ⟨S32x8x1, .f32⟩
  | .hbm, ⟨28, _⟩ => ⟨S32x8x9409, .f32⟩
  | .hbm, ⟨29, _⟩ => ⟨S32x8x9409, .f32⟩
  | .hbm, ⟨30, _⟩ => ⟨S32x8x512, .f32⟩
  | .hbm, ⟨31, _⟩ => ⟨S32x4096, .f32⟩
  | .hbm, ⟨32, _⟩ => ⟨S32x32, .f32⟩
  | .hbm, ⟨33, _⟩ => ⟨S1x32, .f32⟩
  | .hbm, ⟨34, _⟩ => ⟨S32x32, .f32⟩
  | .hbm, ⟨35, _⟩ => ⟨S32x32, .f32⟩
  | .hbm, ⟨36, _⟩ => ⟨S_, .f32⟩
  | .hbm, ⟨37, _⟩ => ⟨S32, .f32⟩
  | .hbm, ⟨38, _⟩ => ⟨S32x1, .f32⟩
  | .hbm, ⟨39, _⟩ => ⟨S_, .f32⟩
  | .hbm, ⟨40, _⟩ => ⟨S32x1, .f32⟩
  | .hbm, ⟨41, _⟩ => ⟨S32x1, .f32⟩
  | .hbm, ⟨42, _⟩ => ⟨S32x32, .f32⟩
  | .hbm, ⟨43, _⟩ => ⟨S32x32, .f32⟩
  | .hbm, ⟨44, _⟩ => ⟨S32x32, .f32⟩
  | .hbm, ⟨45, _⟩ => ⟨S_, .f32⟩
  | .hbm, ⟨46, _⟩ => ⟨S32, .f32⟩
  | .hbm, ⟨47, _⟩ => ⟨S32x1, .f32⟩
  | .hbm, ⟨48, _⟩ => ⟨S_, .f32⟩
  | .hbm, ⟨49, _⟩ => ⟨S32x1, .f32⟩
  | .hbm, ⟨50, _⟩ => ⟨S32x1, .f32⟩
  | .hbm, ⟨51, _⟩ => ⟨S32x32, .f32⟩
  | .hbm, ⟨52, _⟩ => ⟨S32x32, .f32⟩
  | .hbm, ⟨53, _⟩ => ⟨S_, .f32⟩
  | .hbm, ⟨54, _⟩ => ⟨S32x1, .f32⟩
  | .hbm, ⟨55, _⟩ => ⟨S32x1, .f32⟩
  | .hbm, ⟨56, _⟩ => ⟨S32x1, .f32⟩
  | .hbm, ⟨57, _⟩ => ⟨S32x32, .f32⟩
  | .hbm, ⟨58, _⟩ => ⟨S32x32, .f32⟩
  | .hbm, ⟨59, _⟩ => ⟨S1x32, .f32⟩
  | .hbm, ⟨60, _⟩ => ⟨S32x32, .f32⟩
  | .hbm, ⟨61, _⟩ => ⟨S32x32, .f32⟩
  | .hbm, ⟨62, _⟩ => ⟨S1x32, .f32⟩
  | .hbm, ⟨63, _⟩ => ⟨S32x32, .f32⟩
  | .hbm, ⟨64, _⟩ => ⟨S32x32, .f32⟩
  | .hbm, ⟨65, _⟩ => ⟨S_, .f32⟩
  | .hbm, ⟨66, _⟩ => ⟨S32x32, .f32⟩
  | .hbm, ⟨67, _⟩ => ⟨S32x32, .f32⟩
  | .hbm, ⟨68, _⟩ => ⟨S32x512, .f32⟩
  | .hbm, ⟨69, _⟩ => ⟨S1x512, .f32⟩
  | .hbm, ⟨70, _⟩ => ⟨S32x512, .f32⟩
  | .hbm, ⟨71, _⟩ => ⟨S32x512, .f32⟩
  | .hbm, ⟨72, _⟩ => ⟨S32x512x1x1, .f32⟩
  | .hbm, ⟨73, _⟩ => ⟨S32x512x97x97, .f32⟩
  | .hbm, ⟨74, _⟩ => ⟨S32x512x97x97, .f32⟩
  | _, _ => ⟨S32x512x97x97, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  shapeCasts_S32x512x97x97_S32x512x9409 : S32x512x97x97.ShapeCasts S32x512x9409
  transposes_S8x32x512_S32x8x512_1_0_2 : S8x32x512.Transposes [1, 0, 2] S32x8x512
  bcast_S8_S1x8x1_1 : S8.BroadcastsInDim S1x8x1 (![1] : Fin 1 → Fin S1x8x1.rank)
  bcast_S1x8x1_S32x8x512_0_1_2 : S1x8x1.BroadcastsInDim S32x8x512 (![0, 1, 2] : Fin 3 → Fin S32x8x512.rank)
  reducesTo_S32x8x9409_S32x8_d2 : S32x8x9409.ReducesTo [2] S32x8
  h_S_ : 0 < S_.numel
  bcast_S_S32x8 : S_.BroadcastsInDim S32x8 (![] : Fin 0 → Fin S32x8.rank)
  bcast_S32x8_S32x8x1_0_1 : S32x8.BroadcastsInDim S32x8x1 (![0, 1] : Fin 2 → Fin S32x8x1.rank)
  bcast_S32x8x1_S32x8x9409_0_1_2 : S32x8x1.BroadcastsInDim S32x8x9409 (![0, 1, 2] : Fin 3 → Fin S32x8x9409.rank)
  shapeCasts_S32x8x512_S32x4096 : S32x8x512.ShapeCasts S32x4096
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  reducesTo_S32x32_S32_d1 : S32x32.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32_0_1 : S32x1.BroadcastsInDim S32x32 (![0, 1] : Fin 2 → Fin S32x32.rank)
  bcast_S_S32x32 : S_.BroadcastsInDim S32x32 (![] : Fin 0 → Fin S32x32.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S32x512_S32x512x1x1_0_1 : S32x512.BroadcastsInDim S32x512x1x1 (![0, 1] : Fin 2 → Fin S32x512x1x1.rank)
  bcast_S32x512x1x1_S32x512x97x97_0_1_2_3 : S32x512x1x1.BroadcastsInDim S32x512x97x97 (![0, 1, 2, 3] : Fin 4 → Fin S32x512x97x97.rank)
  dot_S8x9409_S32x512x9409_S8x32x512_1_2_0_01_n_n_wf : DotDims.WF S8x9409 S32x512x9409 S8x32x512 [1] [2] [0] [0, 1] [] []
  dot_S32x8x512_S32x512x9409_S32x8x9409_2_1_1_2_0_0_wf : DotDims.WF S32x8x512 S32x512x9409 S32x8x9409 [2] [1] [1] [2] [0] [0]
  dot_S32x8x9409_S32x512x9409_S32x8x512_2_2_1_1_0_0_wf : DotDims.WF S32x8x9409 S32x512x9409 S32x8x512 [2] [2] [1] [1] [0] [0]
  dot_S32x4096_S32x4096_S32x32_1_1_0_0_n_n_wf : DotDims.WF S32x4096 S32x4096 S32x32 [1] [1] [0] [0] [] []
  dot_S32x32_S512x32_S32x512_1_1_0_0_n_n_wf : DotDims.WF S32x32 S512x32 S32x512 [1] [1] [0] [0] [] []

variable [Facts₀]

def dot_S8x9409_S32x512x9409_S8x32x512_1_2_0_01_n_n : DotDims S8x9409 S32x512x9409 S8x32x512 where
  lhsContracting := [1]
  rhsContracting := [2]
  lhsNonContracting := [0]
  rhsNonContracting := [0, 1]
  lhsBatch := []
  rhsBatch := []
  wf := dot_S8x9409_S32x512x9409_S8x32x512_1_2_0_01_n_n_wf
def dot_S32x8x512_S32x512x9409_S32x8x9409_2_1_1_2_0_0 : DotDims S32x8x512 S32x512x9409 S32x8x9409 where
  lhsContracting := [2]
  rhsContracting := [1]
  lhsNonContracting := [1]
  rhsNonContracting := [2]
  lhsBatch := [0]
  rhsBatch := [0]
  wf := dot_S32x8x512_S32x512x9409_S32x8x9409_2_1_1_2_0_0_wf
def dot_S32x8x9409_S32x512x9409_S32x8x512_2_2_1_1_0_0 : DotDims S32x8x9409 S32x512x9409 S32x8x512 where
  lhsContracting := [2]
  rhsContracting := [2]
  lhsNonContracting := [1]
  rhsNonContracting := [1]
  lhsBatch := [0]
  rhsBatch := [0]
  wf := dot_S32x8x9409_S32x512x9409_S32x8x512_2_2_1_1_0_0_wf
def dot_S32x4096_S32x4096_S32x32_1_1_0_0_n_n : DotDims S32x4096 S32x4096 S32x32 where
  lhsContracting := [1]
  rhsContracting := [1]
  lhsNonContracting := [0]
  rhsNonContracting := [0]
  lhsBatch := []
  rhsBatch := []
  wf := dot_S32x4096_S32x4096_S32x32_1_1_0_0_n_n_wf
def dot_S32x32_S512x32_S32x512_1_1_0_0_n_n : DotDims S32x32 S512x32 S32x512 where
  lhsContracting := [1]
  rhsContracting := [1]
  lhsNonContracting := [0]
  rhsNonContracting := [0]
  lhsBatch := []
  rhsBatch := []
  wf := dot_S32x32_S512x32_S32x512_1_1_0_0_n_n_wf

class Facts : Prop extends Facts₀ where

variable [Facts]
-- ==== Proof.Spec.lean ====
/-
  The function both programs compute, on the extended reals, for ONE batch element.

  `X` is the element's feature map, 512 channels by 9409 positions; the rest are the layer's weights.
    proj c m   = Σ_h X c h · wm m h + bm m                     the 8 mask projections of channel c
    score m h  = Σ_c proj c m · X c h
    smax m     = the maximum of score m · over the positions (a fold of max from −∞)
    ex m h     = exp (score m h − smax m),   ssum m = Σ_h ex m h,   attn m h = ex m h / ssum m      (a softmax over the positions)
    ctx m c    = Σ_h attn m h · X c h
    hdn p      = Σ_k ctx (k / 512) (k % 512) · w1 p k + b1 p     the (8, 512) context flattened mask-major
    mu         = (Σ_p hdn p) / 32,   dev p = hdn p − mu,   var = (Σ_p dev p · dev p) / 32
    act p      = max ((dev p · rsqrt (var + ε)) · γ p + β p) 0   layer norm over the 32 features, then relu
    add c      = Σ_p w2 c p · act p + b2 c
    out c h    = X c h + add c
  The four float literals (−∞, 32, ε, 0) are kept as their words: both programs spell the same words, and no step
  of the comparison evaluates them.
-/
import Idealize.ShloMosaic.PureOps.Ideal
import Idealize.ShloMosaic.Lib.ValueIdx

noncomputable section

open scoped BigOperators

namespace Cert.MaskPool

open Idealize.ShloMosaic Idealize.ShloMosaic.ValueIdx

/-- The word of −∞, from which a maximum starts. -/
abbrev negInf : EReal := Ideal.ofBits .f32 0xFF800000#32
/-- The word of 32.0, the number of hidden features. -/
abbrev nFeat : EReal := Ideal.ofBits .f32 0x42000000#32
/-- The word of the layer norm's ε. -/
abbrev epsLN : EReal := Ideal.ofBits .f32 0x3727C5AC#32
/-- The word of 0.0, relu's floor. -/
abbrev zeroW : EReal := Ideal.ofBits .f32 0x00000000#32

/-- A vector read by its coordinate. -/
abbrev rd1 {n : ℕ} (v : (⟨1, ![n]⟩ : Shape).Idx → EReal) : Fin n → EReal := fun i => v (ix1 i)
/-- A two-axis array read by its coordinates. -/
abbrev rd2 {a b : ℕ} (v : (⟨2, ![a, b]⟩ : Shape).Idx → EReal) : Fin a → Fin b → EReal := fun i j => v (ix2 i j)
/-- Batch element `n` of a three-axis array, read by its two remaining coordinates. -/
abbrev slab {B C H : ℕ} (v : (⟨3, ![B, C, H]⟩ : Shape).Idx → EReal) (n : Fin B) : Fin C → Fin H → EReal :=
  fun c h => v (ix3 n c h)

theorem add_eq_add {a a' b b' : EReal} (h1 : a = a') (h2 : b = b') : a + b = a' + b' := by rw [h1, h2]
theorem sub_eq_sub {a a' b b' : EReal} (h1 : a = a') (h2 : b = b') : a - b = a' - b' := by rw [h1, h2]
theorem mul_eq_mul {a a' b b' : EReal} (h1 : a = a') (h2 : b = b') : a * b = a' * b' := by rw [h1, h2]
theorem div_eq_div {a a' b b' : EReal} (h1 : a = a') (h2 : b = b') : Ideal.div a b = Ideal.div a' b' := by rw [h1, h2]
theorem max_eq_max {a a' b b' : EReal} (h1 : a = a') (h2 : b = b') : max a b = max a' b' := by rw [h1, h2]

/-! The float operations at the ideal instance, applied to equal operands: each is the extended reals' operation. -/
theorem fadd_eq {a a' b b' : EReal} (h1 : a = a') (h2 : b = b') : FloatOps.addf (F := Ideal) (φ := .f32) a b = a' + b' := by
  subst h1; subst h2; rfl
theorem fsub_eq {a a' b b' : EReal} (h1 : a = a') (h2 : b = b') : FloatOps.subf (F := Ideal) (φ := .f32) a b = a' - b' := by
  subst h1; subst h2; rfl
theorem fmul_eq {a a' b b' : EReal} (h1 : a = a') (h2 : b = b') : FloatOps.mulf (F := Ideal) (φ := .f32) a b = a' * b' := by
  subst h1; subst h2; rfl
theorem fmax_eq {a a' b b' : EReal} (h1 : a = a') (h2 : b = b') : FloatOps.maximumf (F := Ideal) (φ := .f32) a b = max a' b' := by
  subst h1; subst h2; rfl
theorem hdiv_eq {a a' b b' : EReal} (h1 : a = a') (h2 : b = b') : FloatOps.hostDivf (F := Ideal) (φ := .f32) a b = Ideal.div a' b' := by
  subst h1; subst h2; rfl
theorem hexp_eq {a a' : EReal} (h1 : a = a') : FloatOps.hostUnary (F := Ideal) (φ := .f32) .exp a = Ideal.exp a' := by
  subst h1; rfl
theorem hrsqrt_eq {a a' : EReal} (h1 : a = a') : FloatOps.hostUnary (F := Ideal) (φ := .f32) .rsqrt a = Ideal.rsqrt a' := by
  subst h1; rfl

section
variable (X : Fin 512 → Fin 9409 → EReal) (wm : Fin 8 → Fin 9409 → EReal) (bm : Fin 8 → EReal)
  (w1 : Fin 32 → Fin 4096 → EReal) (b1 gam bet : Fin 32 → EReal) (w2 : Fin 512 → Fin 32 → EReal) (b2 : Fin 512 → EReal)

def proj (c : Fin 512) (m : Fin 8) : EReal := (∑ h : Fin 9409, X c h * wm m h) + bm m
def score (m : Fin 8) (h : Fin 9409) : EReal := ∑ c : Fin 512, proj X wm bm c m * X c h
def smax (m : Fin 8) : EReal := (Finset.univ : Finset (Fin 9409)).fold max negInf (fun h => score X wm bm m h)
def ex (m : Fin 8) (h : Fin 9409) : EReal := Ideal.exp (score X wm bm m h - smax X wm bm m)
def ssum (m : Fin 8) : EReal := ∑ h : Fin 9409, ex X wm bm m h
def attn (m : Fin 8) (h : Fin 9409) : EReal := Ideal.div (ex X wm bm m h) (ssum X wm bm m)
def ctx (m : Fin 8) (c : Fin 512) : EReal := ∑ h : Fin 9409, attn X wm bm m h * X c h
/-- The (8, 512) context read at a flat position `k` of its mask-major flattening. -/
def ctxFlat (k : Fin 4096) : EReal :=
  ctx X wm bm ⟨k.val / 512, by have := k.isLt; omega⟩ ⟨k.val % 512, Nat.mod_lt _ (by decide)⟩
def hdn (p : Fin 32) : EReal := (∑ k : Fin 4096, ctxFlat X wm bm k * w1 p k) + b1 p
def mu : EReal := Ideal.div (∑ p : Fin 32, hdn X wm bm w1 b1 p) nFeat
def dev (p : Fin 32) : EReal := hdn X wm bm w1 b1 p - mu X wm bm w1 b1
def var : EReal := Ideal.div (∑ p : Fin 32, dev X wm bm w1 b1 p * dev X wm bm w1 b1 p) nFeat
def act (p : Fin 32) : EReal :=
  max ((dev X wm bm w1 b1 p * Ideal.rsqrt (var X wm bm w1 b1 + epsLN)) * gam p + bet p) zeroW
def add (c : Fin 512) : EReal := (∑ p : Fin 32, w2 c p * act X wm bm w1 b1 gam bet p) + b2 c
def out (c : Fin 512) (h : Fin 9409) : EReal := X c h + add X wm bm w1 b1 gam bet w2 b2 c

end

/-- THE WHOLE RESULT on [32, 512, 9409]: at `(b, c, h)`, `out` of batch element `b` at channel `c`, position `h`. -/
def whole (X3 : (⟨3, ![32, 512, 9409]⟩ : Shape).Idx → EReal) (wm : (⟨2, ![8, 9409]⟩ : Shape).Idx → EReal)
    (bm : (⟨1, ![8]⟩ : Shape).Idx → EReal) (w1 : (⟨2, ![32, 4096]⟩ : Shape).Idx → EReal) (b1 gam bet : (⟨1, ![32]⟩ : Shape).Idx → EReal)
    (w2 : (⟨2, ![512, 32]⟩ : Shape).Idx → EReal) (b2 : (⟨1, ![512]⟩ : Shape).Idx → EReal) :
    (⟨3, ![32, 512, 9409]⟩ : Shape).Idx → EReal :=
  fun j => out (slab X3 (j 0)) (rd2 wm) (rd1 bm) (rd2 w1) (rd1 b1) (rd1 gam) (rd1 bet) (rd2 w2) (rd1 b2) (j 1) (j 2)

theorem whole_apply (X3 : (⟨3, ![32, 512, 9409]⟩ : Shape).Idx → EReal) (wm : (⟨2, ![8, 9409]⟩ : Shape).Idx → EReal)
    (bm : (⟨1, ![8]⟩ : Shape).Idx → EReal) (w1 : (⟨2, ![32, 4096]⟩ : Shape).Idx → EReal) (b1 gam bet : (⟨1, ![32]⟩ : Shape).Idx → EReal)
    (w2 : (⟨2, ![512, 32]⟩ : Shape).Idx → EReal) (b2 : (⟨1, ![512]⟩ : Shape).Idx → EReal) (b : Fin 32) (c : Fin 512) (h : Fin 9409) :
    whole X3 wm bm w1 b1 gam bet w2 b2 (ix3 b c h)
      = out (slab X3 b) (rd2 wm) (rd1 bm) (rd2 w1) (rd1 b1) (rd1 gam) (rd1 bet) (rd2 w2) (rd1 b2) c h := rfl

end Cert.MaskPool

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.KernelBody.lean ====
/-
  The kernel body's arithmetic, read at coordinates on the extended reals.

  One grid point holds one batch element: the block `x` of shape [1, 512, 9409] and the whole weight arrays. Each step
  of the body — the three products with the block, the softmax over the positions, the flattening of the (8, 512)
  context, the hidden layer with its layer norm and relu, the output product — is read at an index and joined to the
  matching step of `Cert.MaskPool`; the stored block is then `x + add` at every channel and position.
-/
import proofs.«114064_j67551245631621_2_alg».proof.Proof.Gen.KernelIdeal.Skeleton
import proofs.«114064_j67551245631621_2_alg».proof.Proof.Spec
import proofs.«114064_j67551245631621_2_alg».proof.Proof.LibRowOps

noncomputable section

open scoped BigOperators

namespace Cert.MaskPool.Kernel

open Idealize.ShloMosaic Idealize.ShloMosaic.ValueIdx Cert.KernelIdeal Cert.KernelIdeal.Gen Cert.RowOps Cert.MaskPool

/-! ## The index maps of the five products, coordinate by coordinate -/

theorem dA_l0 (j : S512x8.Idx) (q : dot_S512x9409_S8x9409_S512x8_1_1_0_0_n_n.contr.Idx) :
    (dot_S512x9409_S8x9409_S512x8_1_1_0_0_n_n.lhsIdx j q 0).val = (j 0).val := by
  unfold DotDims.lhsIdx
  rw [dif_neg (show ¬(0 : Fin S512x9409.rank) ∈ dot_S512x9409_S8x9409_S512x8_1_1_0_0_n_n.lhsBatch by decide), dif_pos (show (0 : Fin S512x9409.rank) ∈ dot_S512x9409_S8x9409_S512x8_1_1_0_0_n_n.lhsNonContracting by decide)]
  rfl
theorem dA_l1 (j : S512x8.Idx) (q : dot_S512x9409_S8x9409_S512x8_1_1_0_0_n_n.contr.Idx) :
    (dot_S512x9409_S8x9409_S512x8_1_1_0_0_n_n.lhsIdx j q 1).val = (q ⟨0, by decide⟩).val :=
  dot_S512x9409_S8x9409_S512x8_1_1_0_0_n_n.lhsIdx_val_of_single rfl j q
theorem dA_r0 (j : S512x8.Idx) (q : dot_S512x9409_S8x9409_S512x8_1_1_0_0_n_n.contr.Idx) :
    (dot_S512x9409_S8x9409_S512x8_1_1_0_0_n_n.rhsIdx j q 0).val = (j 1).val := by
  unfold DotDims.rhsIdx
  rw [dif_neg (show ¬(0 : Fin S8x9409.rank) ∈ dot_S512x9409_S8x9409_S512x8_1_1_0_0_n_n.rhsBatch by decide), dif_pos (show (0 : Fin S8x9409.rank) ∈ dot_S512x9409_S8x9409_S512x8_1_1_0_0_n_n.rhsNonContracting by decide)]
  rfl
theorem dA_r1 (j : S512x8.Idx) (q : dot_S512x9409_S8x9409_S512x8_1_1_0_0_n_n.contr.Idx) :
    (dot_S512x9409_S8x9409_S512x8_1_1_0_0_n_n.rhsIdx j q 1).val = (q ⟨0, by decide⟩).val :=
  dot_S512x9409_S8x9409_S512x8_1_1_0_0_n_n.rhsIdx_val_of_single rfl j q

theorem dB_l0 (j : S8x9409.Idx) (q : dot_S512x8_S512x9409_S8x9409_0_0_1_1_n_n.contr.Idx) :
    (dot_S512x8_S512x9409_S8x9409_0_0_1_1_n_n.lhsIdx j q 0).val = (q ⟨0, by decide⟩).val :=
  dot_S512x8_S512x9409_S8x9409_0_0_1_1_n_n.lhsIdx_val_of_single rfl j q
theorem dB_l1 (j : S8x9409.Idx) (q : dot_S512x8_S512x9409_S8x9409_0_0_1_1_n_n.contr.Idx) :
    (dot_S512x8_S512x9409_S8x9409_0_0_1_1_n_n.lhsIdx j q 1).val = (j 0).val := by
  unfold DotDims.lhsIdx
  rw [dif_neg (show ¬(1 : Fin S512x8.rank) ∈ dot_S512x8_S512x9409_S8x9409_0_0_1_1_n_n.lhsBatch by decide), dif_pos (show (1 : Fin S512x8.rank) ∈ dot_S512x8_S512x9409_S8x9409_0_0_1_1_n_n.lhsNonContracting by decide)]
  rfl
theorem dB_r0 (j : S8x9409.Idx) (q : dot_S512x8_S512x9409_S8x9409_0_0_1_1_n_n.contr.Idx) :
    (dot_S512x8_S512x9409_S8x9409_0_0_1_1_n_n.rhsIdx j q 0).val = (q ⟨0, by decide⟩).val :=
  dot_S512x8_S512x9409_S8x9409_0_0_1_1_n_n.rhsIdx_val_of_single rfl j q
theorem dB_r1 (j : S8x9409.Idx) (q : dot_S512x8_S512x9409_S8x9409_0_0_1_1_n_n.contr.Idx) :
    (dot_S512x8_S512x9409_S8x9409_0_0_1_1_n_n.rhsIdx j q 1).val = (j 1).val := by
  unfold DotDims.rhsIdx
  rw [dif_neg (show ¬(1 : Fin S512x9409.rank) ∈ dot_S512x8_S512x9409_S8x9409_0_0_1_1_n_n.rhsBatch by decide), dif_pos (show (1 : Fin S512x9409.rank) ∈ dot_S512x8_S512x9409_S8x9409_0_0_1_1_n_n.rhsNonContracting by decide)]
  rfl

theorem dC_l0 (j : S8x512.Idx) (q : dot_S8x9409_S512x9409_S8x512_1_1_0_0_n_n.contr.Idx) :
    (dot_S8x9409_S512x9409_S8x512_1_1_0_0_n_n.lhsIdx j q 0).val = (j 0).val := by
  unfold DotDims.lhsIdx
  rw [dif_neg (show ¬(0 : Fin S8x9409.rank) ∈ dot_S8x9409_S512x9409_S8x512_1_1_0_0_n_n.lhsBatch by decide), dif_pos (show (0 : Fin S8x9409.rank) ∈ dot_S8x9409_S512x9409_S8x512_1_1_0_0_n_n.lhsNonContracting by decide)]
  rfl
theorem dC_l1 (j : S8x512.Idx) (q : dot_S8x9409_S512x9409_S8x512_1_1_0_0_n_n.contr.Idx) :
    (dot_S8x9409_S512x9409_S8x512_1_1_0_0_n_n.lhsIdx j q 1).val = (q ⟨0, by decide⟩).val :=
  dot_S8x9409_S512x9409_S8x512_1_1_0_0_n_n.lhsIdx_val_of_single rfl j q
theorem dC_r0 (j : S8x512.Idx) (q : dot_S8x9409_S512x9409_S8x512_1_1_0_0_n_n.contr.Idx) :
    (dot_S8x9409_S512x9409_S8x512_1_1_0_0_n_n.rhsIdx j q 0).val = (j 1).val := by
  unfold DotDims.rhsIdx
  rw [dif_neg (show ¬(0 : Fin S512x9409.rank) ∈ dot_S8x9409_S512x9409_S8x512_1_1_0_0_n_n.rhsBatch by decide), dif_pos (show (0 : Fin S512x9409.rank) ∈ dot_S8x9409_S512x9409_S8x512_1_1_0_0_n_n.rhsNonContracting by decide)]
  rfl
theorem dC_r1 (j : S8x512.Idx) (q : dot_S8x9409_S512x9409_S8x512_1_1_0_0_n_n.contr.Idx) :
    (dot_S8x9409_S512x9409_S8x512_1_1_0_0_n_n.rhsIdx j q 1).val = (q ⟨0, by decide⟩).val :=
  dot_S8x9409_S512x9409_S8x512_1_1_0_0_n_n.rhsIdx_val_of_single rfl j q

theorem dD_l0 (j : S1x32.Idx) (q : dot_S1x4096_S32x4096_S1x32_1_1_0_0_n_n.contr.Idx) :
    (dot_S1x4096_S32x4096_S1x32_1_1_0_0_n_n.lhsIdx j q 0).val = (j 0).val := by
  unfold DotDims.lhsIdx
  rw [dif_neg (show ¬(0 : Fin S1x4096.rank) ∈ dot_S1x4096_S32x4096_S1x32_1_1_0_0_n_n.lhsBatch by decide), dif_pos (show (0 : Fin S1x4096.rank) ∈ dot_S1x4096_S32x4096_S1x32_1_1_0_0_n_n.lhsNonContracting by decide)]
  rfl
theorem dD_l1 (j : S1x32.Idx) (q : dot_S1x4096_S32x4096_S1x32_1_1_0_0_n_n.contr.Idx) :
    (dot_S1x4096_S32x4096_S1x32_1_1_0_0_n_n.lhsIdx j q 1).val = (q ⟨0, by decide⟩).val :=
  dot_S1x4096_S32x4096_S1x32_1_1_0_0_n_n.lhsIdx_val_of_single rfl j q
theorem dD_r0 (j : S1x32.Idx) (q : dot_S1x4096_S32x4096_S1x32_1_1_0_0_n_n.contr.Idx) :
    (dot_S1x4096_S32x4096_S1x32_1_1_0_0_n_n.rhsIdx j q 0).val = (j 1).val := by
  unfold DotDims.rhsIdx
  rw [dif_neg (show ¬(0 : Fin S32x4096.rank) ∈ dot_S1x4096_S32x4096_S1x32_1_1_0_0_n_n.rhsBatch by decide), dif_pos (show (0 : Fin S32x4096.rank) ∈ dot_S1x4096_S32x4096_S1x32_1_1_0_0_n_n.rhsNonContracting by decide)]
  rfl
theorem dD_r1 (j : S1x32.Idx) (q : dot_S1x4096_S32x4096_S1x32_1_1_0_0_n_n.contr.Idx) :
    (dot_S1x4096_S32x4096_S1x32_1_1_0_0_n_n.rhsIdx j q 1).val = (q ⟨0, by decide⟩).val :=
  dot_S1x4096_S32x4096_S1x32_1_1_0_0_n_n.rhsIdx_val_of_single rfl j q

theorem dE_l0 (j : S512x1.Idx) (q : dot_S512x32_S1x32_S512x1_1_1_0_0_n_n.contr.Idx) :
    (dot_S512x32_S1x32_S512x1_1_1_0_0_n_n.lhsIdx j q 0).val = (j 0).val := by
  unfold DotDims.lhsIdx
  rw [dif_neg (show ¬(0 : Fin S512x32.rank) ∈ dot_S512x32_S1x32_S512x1_1_1_0_0_n_n.lhsBatch by decide), dif_pos (show (0 : Fin S512x32.rank) ∈ dot_S512x32_S1x32_S512x1_1_1_0_0_n_n.lhsNonContracting by decide)]
  rfl
theorem dE_l1 (j : S512x1.Idx) (q : dot_S512x32_S1x32_S512x1_1_1_0_0_n_n.contr.Idx) :
    (dot_S512x32_S1x32_S512x1_1_1_0_0_n_n.lhsIdx j q 1).val = (q ⟨0, by decide⟩).val :=
  dot_S512x32_S1x32_S512x1_1_1_0_0_n_n.lhsIdx_val_of_single rfl j q
theorem dE_r0 (j : S512x1.Idx) (q : dot_S512x32_S1x32_S512x1_1_1_0_0_n_n.contr.Idx) :
    (dot_S512x32_S1x32_S512x1_1_1_0_0_n_n.rhsIdx j q 0).val = (j 1).val := by
  unfold DotDims.rhsIdx
  rw [dif_neg (show ¬(0 : Fin S1x32.rank) ∈ dot_S512x32_S1x32_S512x1_1_1_0_0_n_n.rhsBatch by decide), dif_pos (show (0 : Fin S1x32.rank) ∈ dot_S512x32_S1x32_S512x1_1_1_0_0_n_n.rhsNonContracting by decide)]
  rfl
theorem dE_r1 (j : S512x1.Idx) (q : dot_S512x32_S1x32_S512x1_1_1_0_0_n_n.contr.Idx) :
    (dot_S512x32_S1x32_S512x1_1_1_0_0_n_n.rhsIdx j q 1).val = (q ⟨0, by decide⟩).val :=
  dot_S512x32_S1x32_S512x1_1_1_0_0_n_n.rhsIdx_val_of_single rfl j q

/-! ## The steps -/

/-- The block with its unit batch axis dropped reads the block at `(0, c, h)`. -/
theorem x2_apply (x : FVec Ideal S1x512x9409 .f32) (hsc : S1x512x9409.ShapeCasts S512x9409) (c : Fin 512) (h : Fin 9409) :
    shapeCast S512x9409 x hsc (ix2 c h) = x (ix3 (0 : Fin 1) c h) := shapeCast_1ab_ab_apply x hsc c h

/-- The mask projections: `Σ_h x (c, h) · wm (m, h) + bm m`. -/
theorem proj_apply (x : FVec Ideal S1x512x9409 .f32) (wm : FVec Ideal S8x9409 .f32) (bm : FVec Ideal S8 .f32)
    (hsc : S1x512x9409.ShapeCasts S512x9409) (hsb : S8.ShapeCasts S1x8) (hbc : S1x8.Broadcasts S512x8) (c : Fin 512) (m : Fin 8) :
    addf (matmul dot_S512x9409_S8x9409_S512x8_1_1_0_0_n_n none (shapeCast S512x9409 x hsc) wm (constant S512x8 .f32 0x00000000#32))
      (broadcastTo S512x8 (shapeCast S1x8 bm hsb) hbc) (ix2 c m)
    = proj (slab x 0) (rd2 wm) (rd1 bm) c m :=
  (addf_apply _ _ _).trans (add_eq_add
    ((matmul_nt_apply _ none rfl rfl dA_l0 dA_l1 dA_r0 dA_r1 _ _ c m).trans
      (Finset.sum_congr rfl fun h _ => mul_eq_mul (x2_apply x hsc c h) rfl))
    ((broadcastTo_1b_ab_apply _ hbc c m).trans (shapeCast_a_1a_apply bm hsb 0 m)))

/-- The scores: `Σ_c P (c, m) · x (c, h)`. -/
theorem score_apply (x : FVec Ideal S1x512x9409 .f32) (P : FVec Ideal S512x8 .f32) (Pf : Fin 512 → Fin 8 → EReal)
    (hP : ∀ c m, P (ix2 c m) = Pf c m) (hsc : S1x512x9409.ShapeCasts S512x9409) (m : Fin 8) (h : Fin 9409) :
    matmul dot_S512x8_S512x9409_S8x9409_0_0_1_1_n_n none P (shapeCast S512x9409 x hsc) (constant S8x9409 .f32 0x00000000#32) (ix2 m h)
      = ∑ c : Fin 512, Pf c m * x (ix3 (0 : Fin 1) c h) :=
  (matmul_tn_apply _ none rfl rfl dB_l0 dB_l1 dB_r0 dB_r1 _ _ m h).trans
    (Finset.sum_congr rfl fun c _ => mul_eq_mul (hP c m) (x2_apply x hsc c h))

/-- The softmax over the positions: from the scores `S`, their row maximum kept as a column and repeated, the
    exponentials of the differences, their row sums kept as a column and repeated, and the quotient. -/
theorem softmax_apply (S : FVec Ideal S8x9409 .f32) (Sf : Fin 8 → Fin 9409 → EReal) (hS : ∀ m h, S (ix2 m h) = Sf m h)
    (hred : S8x9409.Reduces [1] S8) (hφ : FKind.Formats .f32) (haccM : (0xFF800000#32 : BitVec 32) = FKind.maximumf.neutral .f32 hφ)
    (haccA : (0x00000000#32 : BitVec 32) = FKind.add.neutral .f32 hφ)
    (hsc : S8.ShapeCasts S8x1) (hbc : S8x1.Broadcasts S8x9409) (m : Fin 8) (h : Fin 9409) :
    divf (exp (subf S (broadcastTo S8x9409 (shapeCast S8x1 (multiReduction .maximumf [1] S8 S 0xFF800000#32 hred hφ haccM) hsc) hbc)))
      (broadcastTo S8x9409 (shapeCast S8x1 (multiReduction .add [1] S8
        (exp (subf S (broadcastTo S8x9409 (shapeCast S8x1 (multiReduction .maximumf [1] S8 S 0xFF800000#32 hred hφ haccM) hsc) hbc)))
        0x00000000#32 hred hφ haccA) hsc) hbc) (ix2 m h)
    = Ideal.div (Ideal.exp (Sf m h - (Finset.univ : Finset (Fin 9409)).fold max negInf (fun k => Sf m k)))
        (∑ k : Fin 9409, Ideal.exp (Sf m k - (Finset.univ : Finset (Fin 9409)).fold max negInf (fun k' => Sf m k'))) := by
  have hmax : ∀ (m : Fin 8) (k : Fin 9409),
      broadcastTo S8x9409 (shapeCast S8x1 (multiReduction .maximumf [1] S8 S 0xFF800000#32 hred hφ haccM) hsc) hbc (ix2 m k)
        = (Finset.univ : Finset (Fin 9409)).fold max negInf (fun k' => Sf m k') := fun m k =>
    (broadcastTo_a1_ab_apply _ hbc m k).trans ((shapeCast_a_a1_apply _ hsc m 0).trans
      ((rowMax_apply S _ hred hφ haccM m).trans
        (congrArg (fun f => Finset.fold max negInf f (Finset.univ : Finset (Fin 9409))) (funext fun k' => hS m k'))))
  have hexp : ∀ (m : Fin 8) (k : Fin 9409),
      exp (subf S (broadcastTo S8x9409 (shapeCast S8x1 (multiReduction .maximumf [1] S8 S 0xFF800000#32 hred hφ haccM) hsc) hbc)) (ix2 m k)
        = Ideal.exp (Sf m k - (Finset.univ : Finset (Fin 9409)).fold max negInf (fun k' => Sf m k')) := fun m k =>
    congrArg Ideal.exp (sub_eq_sub (hS m k) (hmax m k))
  refine (divf_apply _ _ _).trans (div_eq_div (hexp m h) ?_)
  refine (broadcastTo_a1_ab_apply _ hbc m h).trans ((shapeCast_a_a1_apply _ hsc m 0).trans ?_)
  exact (rowSum_apply _ _ hred hφ haccA m).trans (Finset.sum_congr rfl fun k _ => hexp m k)

/-- The context: `Σ_h A (m, h) · x (c, h)`. -/
theorem ctx_apply (x : FVec Ideal S1x512x9409 .f32) (A : FVec Ideal S8x9409 .f32) (Af : Fin 8 → Fin 9409 → EReal)
    (hA : ∀ m h, A (ix2 m h) = Af m h) (hsc : S1x512x9409.ShapeCasts S512x9409) (m : Fin 8) (c : Fin 512) :
    matmul dot_S8x9409_S512x9409_S8x512_1_1_0_0_n_n none A (shapeCast S512x9409 x hsc) (constant S8x512 .f32 0x00000000#32) (ix2 m c)
      = ∑ h : Fin 9409, Af m h * x (ix3 (0 : Fin 1) c h) :=
  (matmul_nt_apply _ none rfl rfl dC_l0 dC_l1 dC_r0 dC_r1 _ _ m c).trans
    (Finset.sum_congr rfl fun h _ => mul_eq_mul (hA m h) (x2_apply x hsc c h))

/-- The (8, 512) context flattened to one row of 4096: position `k` reads mask `k / 512`, channel `k % 512`. -/
theorem flat_apply (C : FVec Ideal S8x512 .f32) (hsc : S8x512.ShapeCasts S1x4096) (u : Fin 1) (k : Fin 4096) :
    shapeCast S1x4096 C hsc (ix2 u k)
      = C (ix2 (⟨k.val / 512, by have := k.isLt; omega⟩ : Fin 8) (⟨k.val % 512, Nat.mod_lt _ (by decide)⟩ : Fin 512)) :=
  shapeCast_apply C hsc _ _ (by
    have hu : u.val = 0 := by omega
    have hk : k.val < 4096 := k.isLt
    rw [Shape.rowMajor_val_two, Shape.rowMajor_val_two]
    show k.val / 512 * 512 + k.val % 512 = u.val * 4096 + k.val
    omega)

/-- The hidden layer: `Σ_k Cf k · w1 (p, k) + b1 p`. -/
theorem hdn_apply (R : FVec Ideal S1x4096 .f32) (Rf : Fin 4096 → EReal) (hR : ∀ k, R (ix2 (0 : Fin 1) k) = Rf k)
    (w1 : FVec Ideal S32x4096 .f32) (b1 : FVec Ideal S32 .f32) (hsb : S32.ShapeCasts S1x32) (u : Fin 1) (p : Fin 32) :
    addf (matmul dot_S1x4096_S32x4096_S1x32_1_1_0_0_n_n none R w1 (constant S1x32 .f32 0x00000000#32)) (shapeCast S1x32 b1 hsb) (ix2 u p)
      = (∑ k : Fin 4096, Rf k * w1 (ix2 p k)) + b1 (ix1 p) := by
  obtain rfl : u = 0 := Subsingleton.elim _ _
  exact (addf_apply _ _ _).trans (add_eq_add
    ((matmul_nt_apply _ none rfl rfl dD_l0 dD_l1 dD_r0 dD_r1 _ _ 0 p).trans
      (Finset.sum_congr rfl fun k _ => mul_eq_mul (hR k) rfl))
    (shapeCast_a_1a_apply b1 hsb 0 p))

/-! ## The payloads -/

section Payloads
variable (x : FVec Ideal S1x512x9409 .f32) (wm : FVec Ideal S8x9409 .f32) (bm : FVec Ideal S8 .f32)
  (w1 : FVec Ideal S32x4096 .f32) (b1 gam bet : FVec Ideal S32 .f32) (w2 : FVec Ideal S512x32 .f32) (b2 : FVec Ideal S512 .f32)

/-- The hidden layer's pre-activation is `hdn` of the block's batch element. -/
theorem pay2_apply (u : Fin 1) (p : Fin 32) :
    k0_pay2 (F := Ideal) wm bm x x x w1 b1 (ix2 u p) = hdn (slab x 0) (rd2 wm) (rd1 bm) (rd2 w1) (rd1 b1) p := by
  unfold k0_pay2
  exact hdn_apply _ (ctxFlat (slab x 0) (rd2 wm) (rd1 bm))
    (fun k => (flat_apply _ _ 0 k).trans
      (ctx_apply x _ (attn (slab x 0) (rd2 wm) (rd1 bm))
        (fun m h => softmax_apply _ (score (slab x 0) (rd2 wm) (rd1 bm))
          (fun m h => score_apply x _ (proj (slab x 0) (rd2 wm) (rd1 bm)) (fun c m => proj_apply x wm bm _ _ _ c m) _ m h)
          _ _ _ _ _ _ m h) _ _ _))
    w1 b1 _ u p

/-- The mean of the 32 features. -/
theorem pay3_apply (u v : Fin 1) :
    k0_pay3 (F := Ideal) wm bm x x x w1 b1 (ix2 u v) = mu (slab x 0) (rd2 wm) (rd1 bm) (rd2 w1) (rd1 b1) := by
  unfold k0_pay3
  refine (divf_apply _ _ _).trans (div_eq_div ?_ rfl)
  refine (shapeCast_a_a1_apply _ _ u v).trans ((rowSum_apply _ _ _ _ _ u).trans ?_)
  exact Finset.sum_congr rfl fun p _ => pay2_apply x wm bm w1 b1 u p

/-- The squared deviations from the mean. -/
theorem pay4_apply (u : Fin 1) (p : Fin 32) :
    k0_pay4 (F := Ideal) wm bm x x x w1 b1 (ix2 u p)
      = dev (slab x 0) (rd2 wm) (rd1 bm) (rd2 w1) (rd1 b1) p * dev (slab x 0) (rd2 wm) (rd1 bm) (rd2 w1) (rd1 b1) p := by
  unfold k0_pay4
  have hd : ∀ q : Fin 32, subf (k0_pay2 (F := Ideal) wm bm x x x w1 b1)
      (broadcastTo S1x32 (k0_pay3 (F := Ideal) wm bm x x x w1 b1) Facts₀.broadcasts_S1x1_S1x32) (ix2 u q)
        = dev (slab x 0) (rd2 wm) (rd1 bm) (rd2 w1) (rd1 b1) q := fun q =>
    (subf_apply _ _ _).trans (sub_eq_sub (pay2_apply x wm bm w1 b1 u q)
      ((broadcastTo_a1_ab_apply _ _ u q).trans (pay3_apply x wm bm w1 b1 u 0)))
  exact (mulf_apply _ _ _).trans (mul_eq_mul (hd p) (hd p))

end Payloads

section Stored
variable (x : FVec Ideal S1x512x9409 .f32) (wm : FVec Ideal S8x9409 .f32) (bm : FVec Ideal S8 .f32)
  (w1 : FVec Ideal S32x4096 .f32) (b1 gam bet : FVec Ideal S32 .f32) (w2 : FVec Ideal S512x32 .f32) (b2 : FVec Ideal S512 .f32)

/-- The stored value from the hidden layer's three carried pieces: the pre-activations `H`, their mean `Mu`, the squared
    deviations `D2`. -/
theorem pay1_apply (v28 : FVec Ideal S1x32 .f32) (v32 : FVec Ideal S1x1 .f32) (v35 : FVec Ideal S1x32 .f32)
    (H : Fin 32 → EReal) (Mu : EReal) (D2 : Fin 32 → EReal)
    (h28 : ∀ p, v28 (ix2 (0 : Fin 1) p) = H p) (h32 : v32 (ix2 (0 : Fin 1) (0 : Fin 1)) = Mu) (h35 : ∀ p, v35 (ix2 (0 : Fin 1) p) = D2 p)
    (u : Fin 1) (c : Fin 512) (h : Fin 9409) :
    k0_pay1 (F := Ideal) v28 v32 v35 gam bet w2 b2 x (ix3 u c h)
      = x (ix3 (0 : Fin 1) c h) + ((∑ p : Fin 32, w2 (ix2 c p)
          * max (((H p - Mu) * Ideal.rsqrt (Ideal.div (∑ q : Fin 32, D2 q) nFeat + epsLN)) * gam (ix1 p) + bet (ix1 p)) zeroW)
        + b2 (ix1 c)) := by
  unfold k0_pay1
  refine (shapeCast_ab_1ab_apply _ _ u c h).trans ?_
  refine (addf_apply _ _ _).trans (add_eq_add (x2_apply x _ c h) ?_)
  refine (broadcastTo_a1_ab_apply _ _ c h).trans ?_
  refine (addf_apply _ _ _).trans (add_eq_add ?_ (shapeCast_a_a1_apply b2 _ c 0))
  refine (matmul_nt_apply _ none rfl rfl dE_l0 dE_l1 dE_r0 dE_r1 _ _ c 0).trans ?_
  refine Finset.sum_congr rfl fun p _ => mul_eq_mul rfl ?_
  refine (maximumf_apply _ _ _).trans (max_eq_max ?_ rfl)
  refine (addf_apply _ _ _).trans (add_eq_add ?_ (shapeCast_a_1a_apply bet _ 0 p))
  refine (mulf_apply _ _ _).trans (mul_eq_mul ?_ (shapeCast_a_1a_apply gam _ 0 p))
  refine (mulf_apply _ _ _).trans (mul_eq_mul ?_ ?_)
  · exact (subf_apply _ _ _).trans (sub_eq_sub (h28 p) ((broadcastTo_a1_ab_apply _ _ 0 p).trans h32))
  · refine (broadcastTo_a1_ab_apply _ _ 0 p).trans ?_
    refine congrArg Ideal.rsqrt ?_
    refine (addf_apply _ _ _).trans (add_eq_add ?_ rfl)
    refine (divf_apply _ _ _).trans (div_eq_div ?_ rfl)
    exact (shapeCast_a_a1_apply _ _ 0 0).trans ((rowSum_apply _ _ _ _ _ 0).trans (Finset.sum_congr rfl fun q _ => h35 q))

/-- THE STORED BLOCK: at `(u, c, h)` the body stores `out` of the block's batch element at channel `c`, position `h`. -/
theorem stored_apply (u : Fin 1) (c : Fin 512) (h : Fin 9409) :
    k0_pay1 (F := Ideal) (k0_pay2 wm bm x x x w1 b1) (k0_pay3 wm bm x x x w1 b1) (k0_pay4 wm bm x x x w1 b1) gam bet w2 b2 x (ix3 u c h)
      = out (slab x 0) (rd2 wm) (rd1 bm) (rd2 w1) (rd1 b1) (rd1 gam) (rd1 bet) (rd2 w2) (rd1 b2) c h :=
  pay1_apply x gam bet w2 b2 _ _ _ _ _ _ (fun p => pay2_apply x wm bm w1 b1 0 p) (pay3_apply x wm bm w1 b1 0 0)
    (fun p => pay4_apply x wm bm w1 b1 0 p) u c h

/-- The same as an equation of blocks. -/
theorem stored_eq :
    k0_pay1 (F := Ideal) (k0_pay2 wm bm x x x w1 b1) (k0_pay3 wm bm x x x w1 b1) (k0_pay4 wm bm x x x w1 b1) gam bet w2 b2 x
      = fun j => out (slab x 0) (rd2 wm) (rd1 bm) (rd2 w1) (rd1 b1) (rd1 gam) (rd1 bet) (rd2 w2) (rd1 b2) (j 1) (j 2) := by
  funext j
  obtain ⟨u, c, h, rfl⟩ : ∃ (u : Fin 1) (c : Fin 512) (h : Fin 9409), j = ix3 u c h := ⟨j 0, j 1, j 2, eq_ix3 j⟩
  exact stored_apply x wm bm w1 b1 gam bet w2 b2 u c h

end Stored

end Cert.MaskPool.Kernel

end
-- ==== Proof.KernelValue.lean ====
/-
  The kernel's run, read: what each grid point writes back, the array after the last point, and the reshape after the
  region.

  Grid point `t` holds batch element `t`: the input window's block is slab `t` of the [32, 512, 9409] array, every
  weight window's block is its whole array, and the output window's block is slab `t` of the result array. With the
  body's arithmetic read (`Cert.MaskPool.Kernel.stored_eq`) the block written back is slab `t` of `whole`; the 32
  slabs cover the array, so after the run it is `whole`, and the program's result is its cast to [32, 512, 97, 97].
-/
import proofs.«114064_j67551245631621_2_alg».proof.Proof.Gen.KernelIdeal.Frame
import proofs.«114064_j67551245631621_2_alg».proof.Proof.KernelBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.MaskPool.KernelRun

open Cert.KernelIdeal Cert.KernelIdeal.Gen Cert.MaskPool

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The result array, as a function of the arrays the region finds. -/
abbrev Gk (c : Dev nD) : S32x512x9409.Idx → EReal :=
  whole (V m c main_v0) (V m c main_arg1) (V m c main_arg2) (V m c main_arg3) (V m c main_arg4) (V m c main_arg5)
    (V m c main_arg6) (V m c main_arg7) (V m c main_arg8)

/-- The printed index maps, decided over the 32 points: the input and output windows are at block `t` of the batch
    axis, every weight window at block 0. -/
theorem idx_facts : ∀ t : Fin cfg0.N, win0_0.index t (0 : Fin 3) = t.val
    ∧ win0_0.index t (1 : Fin 3) = 0
    ∧ win0_0.index t (2 : Fin 3) = 0
    ∧ win0_9.index t (0 : Fin 3) = t.val
    ∧ win0_9.index t (1 : Fin 3) = 0
    ∧ win0_9.index t (2 : Fin 3) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 1) = 0
    ∧ win0_6.index t (0 : Fin 1) = 0
    ∧ win0_7.index t (0 : Fin 2) = 0
    ∧ win0_7.index t (1 : Fin 2) = 0
    ∧ win0_8.index t (0 : Fin 1) = 0 :=
  (by decide +kernel : ∀ t : Fin grid0.N, _)

/-- Point `t` as a batch index. -/
abbrev batchOf (t : Fin cfg0.N) : Fin 32 := Fin.cast N_0 t

/-- The input window's block at point `t` is slab `t` of the array. -/
theorem blk0 (c : Dev nD) (t : Fin cfg0.N) :
    slab (iblk m c 0 t : FVec Ideal S1x512x9409 .f32) (0 : Fin 1) = slab (V m c main_v0 : S32x512x9409.Idx → EReal) (batchOf t) := by
  obtain ⟨e0_0, e0_1, e0_2, e9_0, e9_1, e9_2, e1_0, e1_1, e2_0, e3_0, e3_1, e4_0, e5_0, e6_0, e7_0, e7_1, e8_0⟩ := idx_facts t
  funext ch h
  show (iblk m c 0 t : FVec Ideal S1x512x9409 .f32) (ix3 (0 : Fin 1) ch h) = V m c main_v0 (ix3 (batchOf t) ch h)
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = t.val; rw [e0_0]; omega
  | ⟨1, _⟩ => show win0_0.index t (1 : Fin 3) * 512 + 1 * ch.val = ch.val; rw [e0_1]; omega
  | ⟨2, _⟩ => show win0_0.index t (2 : Fin 3) * 9409 + 1 * h.val = h.val; rw [e0_2]; omega

/-- Window 1's block at every point is its whole array. -/
theorem blk1 (c : Dev nD) (t : Fin cfg0.N) : (iblk m c 1 t : FVec Ideal S8x9409 .f32) = V m c main_arg1 := by
  obtain ⟨e0_0, e0_1, e0_2, e9_0, e9_1, e9_2, e1_0, e1_1, e2_0, e3_0, e3_1, e4_0, e5_0, e6_0, e7_0, e7_1, e8_0⟩ := idx_facts t
  funext y
  unfold iblk
  rw [View.read_apply]
  show V m c main_arg1 _ = V m c main_arg1 y
  refine congrArg (V m c main_arg1) (funext fun a => Fin.ext ?_)
  match a with
  | ⟨0, _⟩ => show win0_1.index t (0 : Fin 2) * 8 + 1 * (y 0).val = (y 0).val; rw [e1_0]; omega
  | ⟨1, _⟩ => show win0_1.index t (1 : Fin 2) * 9409 + 1 * (y 1).val = (y 1).val; rw [e1_1]; omega

/-- Window 2's block at every point is its whole array. -/
theorem blk2 (c : Dev nD) (t : Fin cfg0.N) : (iblk m c 2 t : FVec Ideal S8 .f32) = V m c main_arg2 := by
  obtain ⟨e0_0, e0_1, e0_2, e9_0, e9_1, e9_2, e1_0, e1_1, e2_0, e3_0, e3_1, e4_0, e5_0, e6_0, e7_0, e7_1, e8_0⟩ := idx_facts t
  funext y
  unfold iblk
  rw [View.read_apply]
  show V m c main_arg2 _ = V m c main_arg2 y
  refine congrArg (V m c main_arg2) (funext fun a => Fin.ext ?_)
  match a with
  | ⟨0, _⟩ => show win0_2.index t (0 : Fin 1) * 8 + 1 * (y 0).val = (y 0).val; rw [e2_0]; omega

/-- Window 3's block at every point is its whole array. -/
theorem blk3 (c : Dev nD) (t : Fin cfg0.N) : (iblk m c 3 t : FVec Ideal S32x4096 .f32) = V m c main_arg3 := by
  obtain ⟨e0_0, e0_1, e0_2, e9_0, e9_1, e9_2, e1_0, e1_1, e2_0, e3_0, e3_1, e4_0, e5_0, e6_0, e7_0, e7_1, e8_0⟩ := idx_facts t
  funext y
  unfold iblk
  rw [View.read_apply]
  show V m c main_arg3 _ = V m c main_arg3 y
  refine congrArg (V m c main_arg3) (funext fun a => Fin.ext ?_)
  match a with
  | ⟨0, _⟩ => show win0_3.index t (0 : Fin 2) * 32 + 1 * (y 0).val = (y 0).val; rw [e3_0]; omega
  | ⟨1, _⟩ => show win0_3.index t (1 : Fin 2) * 4096 + 1 * (y 1).val = (y 1).val; rw [e3_1]; omega

/-- Window 4's block at every point is its whole array. -/
theorem blk4 (c : Dev nD) (t : Fin cfg0.N) : (iblk m c 4 t : FVec Ideal S32 .f32) = V m c main_arg4 := by
  obtain ⟨e0_0, e0_1, e0_2, e9_0, e9_1, e9_2, e1_0, e1_1, e2_0, e3_0, e3_1, e4_0, e5_0, e6_0, e7_0, e7_1, e8_0⟩ := idx_facts t
  funext y
  unfold iblk
  rw [View.read_apply]
  show V m c main_arg4 _ = V m c main_arg4 y
  refine congrArg (V m c main_arg4) (funext fun a => Fin.ext ?_)
  match a with
  | ⟨0, _⟩ => show win0_4.index t (0 : Fin 1) * 32 + 1 * (y 0).val = (y 0).val; rw [e4_0]; omega

/-- Window 5's block at every point is its whole array. -/
theorem blk5 (c : Dev nD) (t : Fin cfg0.N) : (iblk m c 5 t : FVec Ideal S32 .f32) = V m c main_arg5 := by
  obtain ⟨e0_0, e0_1, e0_2, e9_0, e9_1, e9_2, e1_0, e1_1, e2_0, e3_0, e3_1, e4_0, e5_0, e6_0, e7_0, e7_1, e8_0⟩ := idx_facts t
  funext y
  unfold iblk
  rw [View.read_apply]
  show V m c main_arg5 _ = V m c main_arg5 y
  refine congrArg (V m c main_arg5) (funext fun a => Fin.ext ?_)
  match a with
  | ⟨0, _⟩ => show win0_5.index t (0 : Fin 1) * 32 + 1 * (y 0).val = (y 0).val; rw [e5_0]; omega

/-- Window 6's block at every point is its whole array. -/
theorem blk6 (c : Dev nD) (t : Fin cfg0.N) : (iblk m c 6 t : FVec Ideal S32 .f32) = V m c main_arg6 := by
  obtain ⟨e0_0, e0_1, e0_2, e9_0, e9_1, e9_2, e1_0, e1_1, e2_0, e3_0, e3_1, e4_0, e5_0, e6_0, e7_0, e7_1, e8_0⟩ := idx_facts t
  funext y
  unfold iblk
  rw [View.read_apply]
  show V m c main_arg6 _ = V m c main_arg6 y
  refine congrArg (V m c main_arg6) (funext fun a => Fin.ext ?_)
  match a with
  | ⟨0, _⟩ => show win0_6.index t (0 : Fin 1) * 32 + 1 * (y 0).val = (y 0).val; rw [e6_0]; omega

/-- Window 7's block at every point is its whole array. -/
theorem blk7 (c : Dev nD) (t : Fin cfg0.N) : (iblk m c 7 t : FVec Ideal S512x32 .f32) = V m c main_arg7 := by
  obtain ⟨e0_0, e0_1, e0_2, e9_0, e9_1, e9_2, e1_0, e1_1, e2_0, e3_0, e3_1, e4_0, e5_0, e6_0, e7_0, e7_1, e8_0⟩ := idx_facts t
  funext y
  unfold iblk
  rw [View.read_apply]
  show V m c main_arg7 _ = V m c main_arg7 y
  refine congrArg (V m c main_arg7) (funext fun a => Fin.ext ?_)
  match a with
  | ⟨0, _⟩ => show win0_7.index t (0 : Fin 2) * 512 + 1 * (y 0).val = (y 0).val; rw [e7_0]; omega
  | ⟨1, _⟩ => show win0_7.index t (1 : Fin 2) * 32 + 1 * (y 1).val = (y 1).val; rw [e7_1]; omega

/-- Window 8's block at every point is its whole array. -/
theorem blk8 (c : Dev nD) (t : Fin cfg0.N) : (iblk m c 8 t : FVec Ideal S512 .f32) = V m c main_arg8 := by
  obtain ⟨e0_0, e0_1, e0_2, e9_0, e9_1, e9_2, e1_0, e1_1, e2_0, e3_0, e3_1, e4_0, e5_0, e6_0, e7_0, e7_1, e8_0⟩ := idx_facts t
  funext y
  unfold iblk
  rw [View.read_apply]
  show V m c main_arg8 _ = V m c main_arg8 y
  refine congrArg (V m c main_arg8) (funext fun a => Fin.ext ?_)
  match a with
  | ⟨0, _⟩ => show win0_8.index t (0 : Fin 1) * 512 + 1 * (y 0).val = (y 0).val; rw [e8_0]; omega

/-- WHAT POINT `t` WRITES BACK is block `t` of `whole`. -/
theorem flushed_eq (c : Dev nD) (t : Fin cfg0.N) :
    (dats (F := Ideal) m 0 c).flushed 9 t = ((cfg0.win 9).blk t).view.read (Elt Ideal) (Gk m c) := by
  show (cfg0.win 9).cut (grid0.coords t) ((dats m 0 c).after 9 t) = _
  rw [after0_9]
  unfold out0_9
  rw [View.canon_unit_zero hz3]
  simp only [View.ld_unit_zero (S := S1x512x9409) hz3, View.ld_unit_zero (S := S8x9409) hz2, View.ld_unit_zero (S := S8) hz1,
    View.ld_unit_zero (S := S32x4096) hz2, View.ld_unit_zero (S := S32) hz1, View.ld_unit_zero (S := S512x32) hz2,
    View.ld_unit_zero (S := S512) hz1]
  rw [Kernel.stored_eq (iblk m c 0 t) (iblk m c 1 t) (iblk m c 2 t) (iblk m c 3 t) (iblk m c 4 t) (iblk m c 5 t) (iblk m c 6 t)
    (iblk m c 7 t) (iblk m c 8 t)]
  rw [blk0 m c t, blk1 m c t, blk2 m c t, blk3 m c t, blk4 m c t, blk5 m c t, blk6 m c t, blk7 m c t, blk8 m c t]
  obtain ⟨e0_0, e0_1, e0_2, e9_0, e9_1, e9_2, e1_0, e1_1, e2_0, e3_0, e3_1, e4_0, e5_0, e6_0, e7_0, e7_1, e8_0⟩ := idx_facts t
  funext j
  have hj0 : (j 0).val < 1 := (j 0).isLt
  have hemb : ((cfg0.win 9).blk t).view.emb j = ix3 (batchOf t) (j 1) (j 2) := by
    funext a; apply Fin.ext
    match a with
    | ⟨0, _⟩ => show win0_9.index t (0 : Fin 3) * 1 + 1 * (j 0).val = t.val; rw [e9_0]; omega
    | ⟨1, _⟩ => show win0_9.index t (1 : Fin 3) * 512 + 1 * (j 1).val = (j 1).val; rw [e9_1]; omega
    | ⟨2, _⟩ => show win0_9.index t (2 : Fin 3) * 9409 + 1 * (j 2).val = (j 2).val; rw [e9_2]; omega
  show _ = Gk m c (((cfg0.win 9).blk t).view.emb j)
  rw [hemb]
  rfl

/-! ## The array after the run -/

/-- An index of the array is in point `t`'s block iff each coordinate is in the block's range on its axis. -/
theorem mem_blk (t : Fin cfg0.N) (i : S32x512x9409.Idx) :
    i ∈ ((cfg0.win 9).blk t).view.set ↔ ∀ a : Fin 3, win0_9.index t a * S1x512x9409.size a ≤ (i a).val
      ∧ (i a).val < win0_9.index t a * S1x512x9409.size a + S1x512x9409.size a := by
  show i ∈ ((View.whole main_v1).slice (win0_9.rect t)).set ↔ _
  rw [View.set_slice_whole, Rect.mem_set_unit]
  exact Iff.rfl

/-- THE ARRAY after the last point: index `(b, c, h)` is in point `b`'s block, so the array is `whole`. -/
theorem final (c : Dev nD) : (dats (F := Ideal) m 0 c).arrAt 9 cfg0.N = Gk m c :=
  (dats m 0 c).arrAt_eq_of_cover 9 (Gk m c) (fun t _ => flushed_eq m c t) fun i => by
    have h0 : (i 0).val < 32 := (i 0).isLt
    have h1 : (i 1).val < 512 := (i 1).isLt
    have h2 : (i 2).val < 9409 := (i 2).isLt
    have ht : (Fin.cast N_0.symm (i 0) : Fin cfg0.N).val = (i 0).val := rfl
    obtain ⟨e0_0, e0_1, e0_2, e9_0, e9_1, e9_2, e1_0, e1_1, e2_0, e3_0, e3_1, e4_0, e5_0, e6_0, e7_0, e7_1, e8_0⟩ := idx_facts (Fin.cast N_0.symm (i 0))
    refine ⟨Fin.cast N_0.symm (i 0), flush0_9 _, ?_⟩
    rw [mem_blk]
    intro a
    match a with
    | ⟨0, _⟩ =>
      show win0_9.index (Fin.cast N_0.symm (i 0)) (0 : Fin 3) * 1 ≤ (i 0).val
        ∧ (i 0).val < win0_9.index (Fin.cast N_0.symm (i 0)) (0 : Fin 3) * 1 + 1
      rw [e9_0]; omega
    | ⟨1, _⟩ =>
      show win0_9.index (Fin.cast N_0.symm (i 0)) (1 : Fin 3) * 512 ≤ (i 1).val
        ∧ (i 1).val < win0_9.index (Fin.cast N_0.symm (i 0)) (1 : Fin 3) * 512 + 512
      rw [e9_1]; omega
    | ⟨2, _⟩ =>
      show win0_9.index (Fin.cast N_0.symm (i 0)) (2 : Fin 3) * 9409 ≤ (i 2).val
        ∧ (i 2).val < win0_9.index (Fin.cast N_0.symm (i 0)) (2 : Fin 3) * 9409 + 9409
      rw [e9_2]; omega

/-! ## The host operations around the region -/

/-- The array the input window reads is the input reshaped to [32, 512, 9409]. -/
theorem V_main_v0 (c : Dev nD) :
    (V m c main_v0 : S32x512x9409.Idx → EReal)
      = shapeCast S32x512x9409 (m ((c : Thread nD τ).loc main_arg0)) Facts₀.shapeCasts_S32x512x97x97_S32x512x9409 := by
  show StableHlo.after hostOps0 (fun b => m (c, b)) (Proc.devRef .tc main_v0) = _
  after_results
  rfl

/-- The program's result from the launch memory: `whole` of the reshaped input and the weights, cast back. -/
def result (c : Dev nD) : S32x512x97x97.Idx → EReal :=
  shapeCast S32x512x97x97
    (whole (shapeCast S32x512x9409 (m ((c : Thread nD τ).loc main_arg0)) Facts₀.shapeCasts_S32x512x97x97_S32x512x9409)
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)))
    Facts₀.shapeCasts_S32x512x9409_S32x512x97x97

theorem Gk_eq (c : Dev nD) :
    Gk m c = whole (shapeCast S32x512x9409 (m ((c : Thread nD τ).loc main_arg0)) Facts₀.shapeCasts_S32x512x97x97_S32x512x9409)
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) := by
  unfold Gk
  rw [V_main_v0 m c, V_main_arg1 m c, V_main_arg2 m c, V_main_arg3 m c, V_main_arg4 m c, V_main_arg5 m c, V_main_arg6 m c,
    V_main_arg7 m c, V_main_arg8 m c]

/-- The reshape after the region, applied to the region's result array. -/
theorem tail_eq (c : Dev nD) :
    Pipeline.afterTail₀ cfgs (dats (F := Ideal) m) 0 (V0 m) [hostOps1] c main_v2 = result m c := by
  unfold Pipeline.afterTail₀
  show StableHlo.after hostOps1 _ (Proc.devRef .tc main_v2) = _
  after_results
  have hw : Pipeline.withArrays (cfgs 0).spec c (V0 m c) (fun w => (dats (F := Ideal) m 0 c).arrAt w (cfgs 0).N)
      (Proc.devRef .tc main_v1)
      = whole (shapeCast S32x512x9409 (m ((c : Thread nD τ).loc main_arg0)) Facts₀.shapeCasts_S32x512x97x97_S32x512x9409)
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) :=
    ((Pipeline.withArrays_arr spec0 launch0.win.arr_inj c _ _ 9).trans (final m c)).trans (Gk_eq m c)
  rw [hw]
  rfl

/-! ## The run, read -/

/-- Every weakly fair execution of the program terminates with the result array at `result` and the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.MaskPool.KernelRun

end
-- ==== Proof.RefAttn.lean ====
/-
  The reference's attention stage, one operation at a time, read at coordinates on the extended reals.

  `X3` is the input reshaped to [32, 512, 9409]; for batch element `b` its slab is the feature map `X` of
  `Cert.MaskPool`. Each stage of the reference up to the flattened context is joined to the matching step: the
  projections (the reference multiplies weight by feature, the product commutes), the scores, the softmax over the
  positions (its maximum is taken once more with −∞, which changes nothing), the context and its flattening.
-/
import proofs.«114064_j67551245631621_2_alg».proof.Proof.Gen.ReferenceIdeal.Read
import proofs.«114064_j67551245631621_2_alg».proof.Proof.Spec
import proofs.«114064_j67551245631621_2_alg».proof.Proof.LibRowOps

noncomputable section

open scoped BigOperators

namespace Cert.MaskPool.Reference

open Idealize.ShloMosaic Idealize.ShloMosaic.ValueIdx Cert.ReferenceIdeal Cert.ReferenceIdeal.Read Cert.RowOps Cert.MaskPool

/-- Two indices with the same coordinates are equal: each coordinate computes. -/
local macro "coords" : tactic => `(tactic| (funext a; apply Fin.ext; fin_cases a <;> rfl))

section
variable (x0 : (⟨S32x512x97x97, .f32⟩ : BufTy).Contents (Elt Ideal)) (x1 : (⟨S8x9409, .f32⟩ : BufTy).Contents (Elt Ideal)) (x2 : (⟨S8, .f32⟩ : BufTy).Contents (Elt Ideal))

local notation "X3" => val_main_v0 (F := Ideal) x0
local notation "Xb" b => slab (val_main_v0 (F := Ideal) x0) b

theorem v1_at (m : Fin 8) (b : Fin 32) (c : Fin 512) :
    val_main_v1 (F := Ideal) x0 x1 (ix3 m b c) = ∑ h : Fin 9409, x1 (ix2 m h) * X3 (ix3 b c h) :=
  (val_main_v1_apply x0 x1 (ix3 m b c)).trans (Finset.sum_congr rfl fun h _ => mul_eq_mul
    (congrArg x1 (show lidx_main_v1 (ix3 m b c) h = ix2 m h by coords))
    (congrArg X3 (show ridx_main_v1 (ix3 m b c) h = ix3 b c h by coords)))

theorem v2_at (b : Fin 32) (m : Fin 8) (c : Fin 512) :
    val_main_v2 (F := Ideal) x0 x1 (ix3 b m c) = val_main_v1 (F := Ideal) x0 x1 (ix3 m b c) :=
  (val_main_v2_apply x0 x1 (ix3 b m c)).trans (congrArg (val_main_v1 (F := Ideal) x0 x1) (by coords))

theorem v4_at (b : Fin 32) (m : Fin 8) (c : Fin 512) : val_main_v4 (F := Ideal) x2 (ix3 b m c) = x2 (ix1 m) :=
  (val_main_v4_apply x2 (ix3 b m c)).trans ((val_main_v3_apply x2 _).trans (congrArg x2 (by coords)))

/-- The projections. -/
theorem v5_at (b : Fin 32) (m : Fin 8) (c : Fin 512) :
    val_main_v5 (F := Ideal) x0 x1 x2 (ix3 b m c) = proj (Xb b) (rd2 x1) (rd1 x2) c m :=
  (val_main_v5_apply x0 x1 x2 _).trans (fadd_eq
    ((v2_at x0 x1 b m c).trans ((v1_at x0 x1 m b c).trans (Finset.sum_congr rfl fun h _ => mul_comm _ _)))
    (v4_at x2 b m c))

/-- The scores. -/
theorem v6_at (b : Fin 32) (m : Fin 8) (h : Fin 9409) :
    val_main_v6 (F := Ideal) x0 x1 x2 (ix3 b m h) = score (Xb b) (rd2 x1) (rd1 x2) m h :=
  (val_main_v6_apply x0 x1 x2 (ix3 b m h)).trans (Finset.sum_congr rfl fun c _ => mul_eq_mul
    ((congrArg (val_main_v5 (F := Ideal) x0 x1 x2) (by coords)).trans (v5_at x0 x1 x2 b m c))
    (congrArg X3 (show ridx_main_v6 (ix3 b m h) c = ix3 b c h by coords)))

theorem v7_at (b : Fin 32) (m : Fin 8) :
    val_main_v7 (F := Ideal) x0 x1 x2 (ix2 b m)
      = (Finset.univ : Finset (Fin 9409)).fold max negInf (fun h => score (Xb b) (rd2 x1) (rd1 x2) m h) := by
  unfold val_main_v7
  exact (hostRowMax3_apply _ _ _ (by decide) _ b m).trans
    (congrArg (fun f => Finset.fold max negInf f (Finset.univ : Finset (Fin 9409))) (funext fun h => v6_at x0 x1 x2 b m h))

/-- The row maximum: taken once more with −∞. -/
theorem v9_at (b : Fin 32) (m : Fin 8) : val_main_v9 (F := Ideal) x0 x1 x2 (ix2 b m) = smax (Xb b) (rd2 x1) (rd1 x2) m :=
  (val_main_v9_apply x0 x1 x2 _).trans ((fmax_eq ((val_main_v8_apply _).trans (val_main_cst_0_apply _)) (v7_at x0 x1 x2 b m)).trans
    (max_fold_max Finset.univ negInf _))

theorem v11_at (b : Fin 32) (m : Fin 8) (h : Fin 9409) :
    val_main_v11 (F := Ideal) x0 x1 x2 (ix3 b m h) = smax (Xb b) (rd2 x1) (rd1 x2) m :=
  (val_main_v11_apply x0 x1 x2 _).trans ((val_main_v10_apply x0 x1 x2 _).trans
    ((congrArg (val_main_v9 (F := Ideal) x0 x1 x2) (by coords)).trans (v9_at x0 x1 x2 b m)))

theorem v13_at (b : Fin 32) (m : Fin 8) (h : Fin 9409) :
    val_main_v13 (F := Ideal) x0 x1 x2 (ix3 b m h) = ex (Xb b) (rd2 x1) (rd1 x2) m h :=
  (val_main_v13_apply x0 x1 x2 _).trans (hexp_eq ((val_main_v12_apply x0 x1 x2 _).trans
    (fsub_eq (v6_at x0 x1 x2 b m h) (v11_at x0 x1 x2 b m h))))

theorem v14_at (b : Fin 32) (m : Fin 8) : val_main_v14 (F := Ideal) x0 x1 x2 (ix2 b m) = ssum (Xb b) (rd2 x1) (rd1 x2) m :=
  (val_main_v14_apply x0 x1 x2 (ix2 b m)).trans ((add_eq_add Ideal.ofBits_zero_f32
    (Finset.sum_congr rfl fun k _ => (congrArg (val_main_v13 (F := Ideal) x0 x1 x2) (by coords)).trans (v13_at x0 x1 x2 b m k))).trans
      (zero_add _))

theorem v16_at (b : Fin 32) (m : Fin 8) (h : Fin 9409) :
    val_main_v16 (F := Ideal) x0 x1 x2 (ix3 b m h) = ssum (Xb b) (rd2 x1) (rd1 x2) m :=
  (val_main_v16_apply x0 x1 x2 _).trans ((val_main_v15_apply x0 x1 x2 _).trans
    ((congrArg (val_main_v14 (F := Ideal) x0 x1 x2) (by coords)).trans (v14_at x0 x1 x2 b m)))

/-- The softmax. -/
theorem v17_at (b : Fin 32) (m : Fin 8) (h : Fin 9409) :
    val_main_v17 (F := Ideal) x0 x1 x2 (ix3 b m h) = attn (Xb b) (rd2 x1) (rd1 x2) m h :=
  (val_main_v17_apply x0 x1 x2 _).trans (hdiv_eq (v13_at x0 x1 x2 b m h) (v16_at x0 x1 x2 b m h))

/-- The context. -/
theorem v18_at (b : Fin 32) (m : Fin 8) (c : Fin 512) :
    val_main_v18 (F := Ideal) x0 x1 x2 (ix3 b m c) = ctx (Xb b) (rd2 x1) (rd1 x2) m c :=
  (val_main_v18_apply x0 x1 x2 (ix3 b m c)).trans (Finset.sum_congr rfl fun h _ => mul_eq_mul
    ((congrArg (val_main_v17 (F := Ideal) x0 x1 x2) (by coords)).trans (v17_at x0 x1 x2 b m h))
    (congrArg X3 (show ridx_main_v18 (ix3 b m c) h = ix3 b c h by coords)))

/-- The flattened context: position `k` of row `b` reads mask `k / 512`, channel `k % 512`. -/
theorem v19_at (b : Fin 32) (k : Fin 4096) :
    val_main_v19 (F := Ideal) x0 x1 x2 (ix2 b k) = ctxFlat (Xb b) (rd2 x1) (rd1 x2) k := by
  have hk : k.val < 4096 := k.isLt
  have hb : b.val < 32 := b.isLt
  have e : idx_main_v19 (ix2 b k)
      = ix3 b (⟨k.val / 512, by omega⟩ : Fin 8) (⟨k.val % 512, Nat.mod_lt _ (by decide)⟩ : Fin 512) := by
    funext a; apply Fin.ext
    match a with
    | ⟨0, _⟩ => show (b.val * 4096 + k.val) / 4096 = b.val; omega
    | ⟨1, _⟩ => show (b.val * 4096 + k.val) / 512 % 8 = k.val / 512; omega
    | ⟨2, _⟩ => show (b.val * 4096 + k.val) % 512 = k.val % 512; omega
  exact (val_main_v19_apply x0 x1 x2 (ix2 b k)).trans ((congrArg (val_main_v18 (F := Ideal) x0 x1 x2) e).trans (v18_at x0 x1 x2 b _ _))

end

end Cert.MaskPool.Reference

end
-- ==== Proof.RefHead.lean ====
/-
  The reference's hidden layer and output, one operation at a time, read at coordinates on the extended reals.

  From the flattened context on: the hidden layer and its bias, the mean and the variance over the 32 features (a host
  sum starts from the word of zero, which adds nothing), the normalisation, the affine map and relu, the output
  product (the reference multiplies activation by weight, the product commutes) with its bias, and the final sum
  with the input, broadcast over the 97 × 97 positions. The last theorem states the whole result as the
  [32, 512, 9409] array `whole` cast back to [32, 512, 97, 97].
-/
import proofs.«114064_j67551245631621_2_alg».proof.Proof.RefAttn

noncomputable section

open scoped BigOperators

namespace Cert.MaskPool.Reference

open Idealize.ShloMosaic Idealize.ShloMosaic.ValueIdx Cert.ReferenceIdeal Cert.ReferenceIdeal.Read Cert.RowOps Cert.MaskPool

/-- Two indices with the same coordinates are equal: each coordinate computes. -/
local macro "coords" : tactic => `(tactic| (funext a; apply Fin.ext; fin_cases a <;> rfl))

section
variable (x0 : (⟨S32x512x97x97, .f32⟩ : BufTy).Contents (Elt Ideal)) (x1 : (⟨S8x9409, .f32⟩ : BufTy).Contents (Elt Ideal)) (x2 : (⟨S8, .f32⟩ : BufTy).Contents (Elt Ideal)) (x3 : (⟨S32x4096, .f32⟩ : BufTy).Contents (Elt Ideal)) (x4 x5 x6 : (⟨S32, .f32⟩ : BufTy).Contents (Elt Ideal)) (x7 : (⟨S512x32, .f32⟩ : BufTy).Contents (Elt Ideal)) (x8 : (⟨S512, .f32⟩ : BufTy).Contents (Elt Ideal))

theorem v20_at (b p : Fin 32) :
    val_main_v20 (F := Ideal) x0 x1 x2 x3 (ix2 b p) = ∑ k : Fin 4096, ctxFlat (slab (val_main_v0 (F := Ideal) x0) b) (rd2 x1) (rd1 x2) k * x3 (ix2 p k) :=
  (val_main_v20_apply x0 x1 x2 x3 (ix2 b p)).trans (Finset.sum_congr rfl fun k _ => mul_eq_mul
    ((congrArg (val_main_v19 (F := Ideal) x0 x1 x2) (by coords)).trans (v19_at x0 x1 x2 b k))
    (congrArg x3 (show ridx_main_v20 (ix2 b p) k = ix2 p k by coords)))

theorem v22_at (b p : Fin 32) : val_main_v22 (F := Ideal) x4 (ix2 b p) = x4 (ix1 p) :=
  (val_main_v22_apply x4 _).trans ((val_main_v21_apply x4 _).trans (congrArg x4 (by coords)))

/-- The hidden layer's pre-activation. -/
theorem v23_at (b p : Fin 32) : val_main_v23 (F := Ideal) x0 x1 x2 x3 x4 (ix2 b p) = hdn (slab (val_main_v0 (F := Ideal) x0) b) (rd2 x1) (rd1 x2) (rd2 x3) (rd1 x4) p :=
  (val_main_v23_apply x0 x1 x2 x3 x4 _).trans (fadd_eq (v20_at x0 x1 x2 x3 b p) (v22_at x4 b p))

theorem v24_at (b : Fin 32) : val_main_v24 (F := Ideal) x0 x1 x2 x3 x4 (ix1 b) = ∑ p : Fin 32, hdn (slab (val_main_v0 (F := Ideal) x0) b) (rd2 x1) (rd1 x2) (rd2 x3) (rd1 x4) p :=
  (val_main_v24_apply x0 x1 x2 x3 x4 (ix1 b)).trans ((add_eq_add Ideal.ofBits_zero_f32
    (Finset.sum_congr rfl fun p _ => (congrArg (val_main_v23 (F := Ideal) x0 x1 x2 x3 x4) (by coords)).trans (v23_at x0 x1 x2 x3 x4 b p))).trans (zero_add _))

/-- The mean. -/
theorem v27_at (b : Fin 32) (u : Fin 1) : val_main_v27 (F := Ideal) x0 x1 x2 x3 x4 (ix2 b u) = mu (slab (val_main_v0 (F := Ideal) x0) b) (rd2 x1) (rd1 x2) (rd2 x3) (rd1 x4) :=
  (val_main_v27_apply x0 x1 x2 x3 x4 _).trans (hdiv_eq
    ((val_main_v25_apply x0 x1 x2 x3 x4 _).trans ((congrArg (val_main_v24 (F := Ideal) x0 x1 x2 x3 x4) (by coords)).trans (v24_at x0 x1 x2 x3 x4 b)))
    ((val_main_v26_apply _).trans (val_main_cst_3_apply _)))

theorem v28_at (b p : Fin 32) : val_main_v28 (F := Ideal) x0 x1 x2 x3 x4 (ix2 b p) = mu (slab (val_main_v0 (F := Ideal) x0) b) (rd2 x1) (rd1 x2) (rd2 x3) (rd1 x4) :=
  (val_main_v28_apply x0 x1 x2 x3 x4 _).trans ((congrArg (val_main_v27 (F := Ideal) x0 x1 x2 x3 x4) (show idx_main_v28 (ix2 b p) = ix2 b (0 : Fin 1) by coords)).trans
    (v27_at x0 x1 x2 x3 x4 b 0))

/-- The deviations from the mean. -/
theorem v29_at (b p : Fin 32) : val_main_v29 (F := Ideal) x0 x1 x2 x3 x4 (ix2 b p) = dev (slab (val_main_v0 (F := Ideal) x0) b) (rd2 x1) (rd1 x2) (rd2 x3) (rd1 x4) p :=
  (val_main_v29_apply x0 x1 x2 x3 x4 _).trans (fsub_eq (v23_at x0 x1 x2 x3 x4 b p) (v28_at x0 x1 x2 x3 x4 b p))

theorem v30_at (b p : Fin 32) : val_main_v30 (F := Ideal) x0 x1 x2 x3 x4 (ix2 b p) = dev (slab (val_main_v0 (F := Ideal) x0) b) (rd2 x1) (rd1 x2) (rd2 x3) (rd1 x4) p * dev (slab (val_main_v0 (F := Ideal) x0) b) (rd2 x1) (rd1 x2) (rd2 x3) (rd1 x4) p :=
  (val_main_v30_apply x0 x1 x2 x3 x4 _).trans (fmul_eq (v29_at x0 x1 x2 x3 x4 b p) (v29_at x0 x1 x2 x3 x4 b p))

theorem v31_at (b : Fin 32) : val_main_v31 (F := Ideal) x0 x1 x2 x3 x4 (ix1 b) = ∑ p : Fin 32, dev (slab (val_main_v0 (F := Ideal) x0) b) (rd2 x1) (rd1 x2) (rd2 x3) (rd1 x4) p * dev (slab (val_main_v0 (F := Ideal) x0) b) (rd2 x1) (rd1 x2) (rd2 x3) (rd1 x4) p :=
  (val_main_v31_apply x0 x1 x2 x3 x4 (ix1 b)).trans ((add_eq_add Ideal.ofBits_zero_f32
    (Finset.sum_congr rfl fun p _ => (congrArg (val_main_v30 (F := Ideal) x0 x1 x2 x3 x4) (by coords)).trans (v30_at x0 x1 x2 x3 x4 b p))).trans (zero_add _))

/-- The variance. -/
theorem v34_at (b : Fin 32) (u : Fin 1) : val_main_v34 (F := Ideal) x0 x1 x2 x3 x4 (ix2 b u) = var (slab (val_main_v0 (F := Ideal) x0) b) (rd2 x1) (rd1 x2) (rd2 x3) (rd1 x4) :=
  (val_main_v34_apply x0 x1 x2 x3 x4 _).trans (hdiv_eq
    ((val_main_v32_apply x0 x1 x2 x3 x4 _).trans ((congrArg (val_main_v31 (F := Ideal) x0 x1 x2 x3 x4) (by coords)).trans (v31_at x0 x1 x2 x3 x4 b)))
    ((val_main_v33_apply _).trans (val_main_cst_5_apply _)))

theorem v36_at (b p : Fin 32) : val_main_v36 (F := Ideal) x0 x1 x2 x3 x4 (ix2 b p) = dev (slab (val_main_v0 (F := Ideal) x0) b) (rd2 x1) (rd1 x2) (rd2 x3) (rd1 x4) p :=
  (val_main_v36_apply x0 x1 x2 x3 x4 _).trans (fsub_eq (v23_at x0 x1 x2 x3 x4 b p)
    ((val_main_v35_apply x0 x1 x2 x3 x4 _).trans ((congrArg (val_main_v27 (F := Ideal) x0 x1 x2 x3 x4) (show idx_main_v35 (ix2 b p) = ix2 b (0 : Fin 1) by coords)).trans
      (v27_at x0 x1 x2 x3 x4 b 0))))

theorem v39_at (b : Fin 32) (u : Fin 1) : val_main_v39 (F := Ideal) x0 x1 x2 x3 x4 (ix2 b u) = Ideal.rsqrt (var (slab (val_main_v0 (F := Ideal) x0) b) (rd2 x1) (rd1 x2) (rd2 x3) (rd1 x4) + epsLN) :=
  (val_main_v39_apply x0 x1 x2 x3 x4 _).trans (hrsqrt_eq ((val_main_v38_apply x0 x1 x2 x3 x4 _).trans
    (fadd_eq (v34_at x0 x1 x2 x3 x4 b u) ((val_main_v37_apply _).trans (val_main_cst_6_apply _)))))

theorem v41_at (b p : Fin 32) : val_main_v41 (F := Ideal) x0 x1 x2 x3 x4 (ix2 b p) = dev (slab (val_main_v0 (F := Ideal) x0) b) (rd2 x1) (rd1 x2) (rd2 x3) (rd1 x4) p * Ideal.rsqrt (var (slab (val_main_v0 (F := Ideal) x0) b) (rd2 x1) (rd1 x2) (rd2 x3) (rd1 x4) + epsLN) :=
  (val_main_v41_apply x0 x1 x2 x3 x4 _).trans (fmul_eq (v36_at x0 x1 x2 x3 x4 b p)
    ((val_main_v40_apply x0 x1 x2 x3 x4 _).trans ((congrArg (val_main_v39 (F := Ideal) x0 x1 x2 x3 x4) (show idx_main_v40 (ix2 b p) = ix2 b (0 : Fin 1) by coords)).trans
      (v39_at x0 x1 x2 x3 x4 b 0))))

theorem v43_at (b p : Fin 32) : val_main_v43 (F := Ideal) x5 (ix2 b p) = x5 (ix1 p) :=
  (val_main_v43_apply x5 _).trans ((val_main_v42_apply x5 _).trans (congrArg x5 (by coords)))

theorem v46_at (b p : Fin 32) : val_main_v46 (F := Ideal) x6 (ix2 b p) = x6 (ix1 p) :=
  (val_main_v46_apply x6 _).trans ((val_main_v45_apply x6 _).trans (congrArg x6 (by coords)))

/-- The activation: layer norm, affine map, relu. -/
theorem v48_at (b p : Fin 32) : val_main_v48 (F := Ideal) x0 x1 x2 x3 x4 x5 x6 (ix2 b p) = act (slab (val_main_v0 (F := Ideal) x0) b) (rd2 x1) (rd1 x2) (rd2 x3) (rd1 x4) (rd1 x5) (rd1 x6) p :=
  (val_main_v48_apply x0 x1 x2 x3 x4 x5 x6 _).trans (fmax_eq
    ((val_main_v47_apply x0 x1 x2 x3 x4 x5 x6 _).trans (fadd_eq
      ((val_main_v44_apply x0 x1 x2 x3 x4 x5 _).trans (fmul_eq (v41_at x0 x1 x2 x3 x4 b p) (v43_at x5 b p)))
      (v46_at x6 b p)))
    ((val_main_call0_v0_apply _).trans (val_main_call0_cst_apply _)))

theorem v51_at (b : Fin 32) (c : Fin 512) : val_main_v51 (F := Ideal) x8 (ix2 b c) = x8 (ix1 c) :=
  (val_main_v51_apply x8 _).trans ((val_main_v50_apply x8 _).trans (congrArg x8 (by coords)))

/-- The per-channel addend. -/
theorem v52_at (b : Fin 32) (c : Fin 512) : val_main_v52 (F := Ideal) x0 x1 x2 x3 x4 x5 x6 x7 x8 (ix2 b c) = add (slab (val_main_v0 (F := Ideal) x0) b) (rd2 x1) (rd1 x2) (rd2 x3) (rd1 x4) (rd1 x5) (rd1 x6) (rd2 x7) (rd1 x8) c :=
  (val_main_v52_apply x0 x1 x2 x3 x4 x5 x6 x7 x8 _).trans (fadd_eq
    ((val_main_v49_apply x0 x1 x2 x3 x4 x5 x6 x7 (ix2 b c)).trans (Finset.sum_congr rfl fun p _ =>
      (mul_eq_mul ((congrArg (val_main_v48 (F := Ideal) x0 x1 x2 x3 x4 x5 x6) (by coords)).trans (v48_at x0 x1 x2 x3 x4 x5 x6 b p))
        (congrArg x7 (show ridx_main_v49 (ix2 b c) p = ix2 c p by coords))).trans (mul_comm _ _)))
    (v51_at x8 b c))

/-- The result at `(b, c, i, j)`: the input there plus channel `c`'s addend of batch element `b`. -/
theorem v55_at (b : Fin 32) (c : Fin 512) (i j : Fin 97) :
    val_main_v55 (F := Ideal) x0 x1 x2 x3 x4 x5 x6 x7 x8 (ix4 b c i j) = x0 (ix4 b c i j) + add (slab (val_main_v0 (F := Ideal) x0) b) (rd2 x1) (rd1 x2) (rd2 x3) (rd1 x4) (rd1 x5) (rd1 x6) (rd2 x7) (rd1 x8) c :=
  (val_main_v55_apply x0 x1 x2 x3 x4 x5 x6 x7 x8 _).trans (fadd_eq rfl
    ((val_main_v54_apply x0 x1 x2 x3 x4 x5 x6 x7 x8 _).trans ((val_main_v53_apply x0 x1 x2 x3 x4 x5 x6 x7 x8 _).trans
      ((congrArg (val_main_v52 (F := Ideal) x0 x1 x2 x3 x4 x5 x6 x7 x8) (by coords)).trans (v52_at x0 x1 x2 x3 x4 x5 x6 x7 x8 b c)))))

/-- THE REFERENCE'S RESULT is `whole` of the reshaped input and the weights, cast back to [32, 512, 97, 97]. -/
theorem result_eq (hsc : (⟨3, ![32, 512, 9409]⟩ : Shape).ShapeCasts ⟨4, ![32, 512, 97, 97]⟩) :
    val_main_v55 (F := Ideal) x0 x1 x2 x3 x4 x5 x6 x7 x8
      = shapeCast ⟨4, ![32, 512, 97, 97]⟩ (whole (val_main_v0 (F := Ideal) x0) x1 x2 x3 x4 x5 x6 x7 x8) hsc := by
  funext q
  obtain ⟨b, c, i, j, rfl⟩ : ∃ (b : Fin 32) (c : Fin 512) (i j : Fin 97), q = ix4 b c i j := ⟨q 0, q 1, q 2, q 3, eq_ix4 q⟩
  have hb : b.val < 32 := b.isLt
  have hc : c.val < 512 := c.isLt
  have hi : i.val < 97 := i.isLt
  have hj : j.val < 97 := j.isLt
  refine (v55_at x0 x1 x2 x3 x4 x5 x6 x7 x8 b c i j).trans ?_
  refine Eq.symm ((shapeCast_apply _ hsc (ix4 b c i j) (ix3 b c (⟨i.val * 97 + j.val, by omega⟩ : Fin 9409)) (by
    rw [Shape.rowMajor_val_three, Shape.rowMajor_val_four]
    show (b.val * 512 + c.val) * 9409 + (i.val * 97 + j.val) = ((b.val * 512 + c.val) * 97 + i.val) * 97 + j.val
    omega)).trans ?_)
  rw [whole_apply]
  unfold out
  refine add_eq_add ?_ rfl
  refine (val_main_v0_apply x0 _).trans (congrArg x0 ?_)
  funext a; apply Fin.ext
  match a with
  | ⟨0, _⟩ => show ((b.val * 512 + c.val) * 9409 + (i.val * 97 + j.val)) / 4817408 = b.val; omega
  | ⟨1, _⟩ => show ((b.val * 512 + c.val) * 9409 + (i.val * 97 + j.val)) / 9409 % 512 = c.val; omega
  | ⟨2, _⟩ => show ((b.val * 512 + c.val) * 9409 + (i.val * 97 + j.val)) / 97 % 97 = i.val; omega
  | ⟨3, _⟩ => show ((b.val * 512 + c.val) * 9409 + (i.val * 97 + j.val)) % 97 = j.val; omega

end

end Cert.MaskPool.Reference

end
-- ==== Proof.lean ====
/-
  A pooling block with eight attention masks, per batch element of a [32, 512, 97, 97] input: the mask projections of each
  channel, the scores of each mask against every position, a softmax over the 9409 positions, the attended context,
  a hidden layer of 32 features with layer norm and relu, and a per-channel addend that is added back to the input.

  The kernel computes one batch element per grid point from the [1, 512, 9409] block of the input reshaped to
  [32, 512, 9409]; the reference computes all 32 at once with batched products. On the extended reals the two are one
  function, `Cert.MaskPool.whole` (Proof/Spec.lean): sums are finite sums in any order, a change of tiling changes
  nothing, and the only law used between the two spellings is that a product commutes (the reference multiplies
  weight by feature and activation by weight where the kernel multiplies the other way round); the reference's extra
  maximum with −∞ leaves a maximum that already started from −∞ unchanged. No step needs the inputs finite.

  Proof/KernelBody.lean reads the body's arithmetic at an index, Proof/KernelValue.lean the blocks written back, the
  array after the last grid point and the reshape after the region; Proof/RefAttn.lean and Proof/RefHead.lean read the
  reference's operations one at a time. The three frames are the generated ones, the ideal pass rewrote nothing.
-/
import proofs.«114064_j67551245631621_2_alg».proof.Defs
import proofs.«114064_j67551245631621_2_alg».proof.Proof.Gen.Kernel
import proofs.«114064_j67551245631621_2_alg».proof.Proof.Gen.Kernel.Skeleton
import proofs.«114064_j67551245631621_2_alg».proof.Proof.Gen.Kernel.Launch
import proofs.«114064_j67551245631621_2_alg».proof.Proof.Gen.Kernel.Points
import proofs.«114064_j67551245631621_2_alg».proof.Proof.Gen.Kernel.Frame
import proofs.«114064_j67551245631621_2_alg».proof.Proof.Gen.KernelIdeal
import proofs.«114064_j67551245631621_2_alg».proof.Proof.Gen.KernelIdeal.Skeleton
import proofs.«114064_j67551245631621_2_alg».proof.Proof.Gen.KernelIdeal.Launch
import proofs.«114064_j67551245631621_2_alg».proof.Proof.Gen.KernelIdeal.Points
import proofs.«114064_j67551245631621_2_alg».proof.Proof.Gen.KernelIdeal.Frame
import proofs.«114064_j67551245631621_2_alg».proof.Proof.Gen.ReferenceIdeal
import proofs.«114064_j67551245631621_2_alg».proof.Proof.Gen.ReferenceIdeal.Run
import proofs.«114064_j67551245631621_2_alg».proof.Proof.Gen.ReferenceIdeal.Read
import proofs.«114064_j67551245631621_2_alg».proof.Proof.Gen.Pre_finite_inputs
import proofs.«114064_j67551245631621_2_alg».proof.Proof.KernelValue
import proofs.«114064_j67551245631621_2_alg».proof.Proof.RefHead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `whole` of the reshaped input and the weights, cast back to [32, 512, 97, 97]: the kernel's
    run read block by block, the reference's read operation by operation, from memories that agree on the arguments. -/
theorem algebraic : Cert.algebraic_KernelIdeal_ReferenceIdeal := by
  intro m ρ m' ρ' _ hagree
  refine ⟨fun c => Cert.MaskPool.KernelRun.result m c, Cert.MaskPool.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq,
    Cert.MaskPool.Reference.result_eq _ _ _ _ _ _ _ _ _ Cert.KernelIdeal.Facts₀.shapeCasts_S32x512x9409_S32x512x97x97]
  obtain ⟨e0, e1, e2, e3, e4, e5, e6, e7, e8⟩ := hagree c
  rw [e0, e1, e2, e3, e4, e5, e6, e7, e8]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
